-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v34)) (v3 : (c : Dev Cert.KernelIdeal.nD) → Buf (Elt Ideal) ((c.tc : Thread Cert.KernelIdeal.nD Cert.KernelIdeal.τ).loc Cert.KernelIdeal.main_v42)) (v4 : (c : Dev Cert.KernelIdeal.nD) → Buf (Elt Ideal) ((c.tc : Thread Cert.KernelIdeal.nD Cert.KernelIdeal.τ).loc Cert.KernelIdeal.main_v15)) (v5 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_v42) = v3 c
          ∧ r.2.mem ((c.tc : Thread Cert.KernelIdeal.nD Cert.KernelIdeal.τ).loc Cert.KernelIdeal.main_v15) = v4 c
          ∧ r.2.mem ((c.tc : Thread Cert.KernelIdeal.nD Cert.KernelIdeal.τ).loc Cert.KernelIdeal.main_v1) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_v19) = v4 c
          ∧ r.2.mem ((c.tc : Thread Cert.ReferenceIdeal.nD Cert.ReferenceIdeal.τ).loc Cert.ReferenceIdeal.main_v5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x768 : Shape := ⟨2, ![256, 768]⟩
abbrev S256x100x1x768 : Shape := ⟨4, ![256, 100, 1, 768]⟩
abbrev S256x100 : Shape := ⟨2, ![256, 100]⟩
abbrev S_ : Shape := ⟨0, ![]⟩

class Facts : Prop where
  bcast_S_S256x768 : S_.BroadcastsInDim S256x768 (![] : Fin 0 → Fin S256x768.rank)
  reducesTo_S256x768_S_d0_1 : S256x768.ReducesTo [0, 1] S_
  h_S_ : 0 < S_.numel
  bcast_S_S256x100x1x768 : S_.BroadcastsInDim S256x100x1x768 (![] : Fin 0 → Fin S256x100x1x768.rank)
  reducesTo_S256x100x1x768_S_d0_1_2_3 : S256x100x1x768.ReducesTo [0, 1, 2, 3] S_
  bcast_S_S256x100 : S_.BroadcastsInDim S256x100 (![] : Fin 0 → Fin S256x100.rank)
  reducesTo_S256x100_S_d0_1 : S256x100.ReducesTo [0, 1] S_

variable [Facts]

def fn_part1 {F : FTy → Type} [FloatOps F] (main_arg4 : FVec F S256x100 .f32) (main_arg5 : FVec F S256x100 .f32) (main_v13 : IVec S_ 1) (main_v16 : IVec S256x100x1x768 1) : IVec S_ 1 :=
  let main_c_5 : IVec S_ 1 := constantI S_ 1 1#1
  let main_v17 : IVec S_ 1 := (fun x v => Host.reduce IntOp.andi x v reducesTo_S256x100x1x768_S_d0_1_2_3 h_S_) main_v16 main_c_5
  let main_v18 : IVec S_ 1 := andi main_v13 main_v17
  let main_v19 : FVec F S256x100 .f32 := Host.absf main_arg4
  let main_cst_6 : FVec F S_ .f32 := constant S_ .f32 0x7F800000#32
  let main_v20 : FVec F S256x100 .f32 := broadcastInDim S256x100 ![] bcast_S_S256x100 main_cst_6
  let main_v21 : IVec S256x100 1 := cmpf .olt main_v19 main_v20
  let main_c_7 : IVec S_ 1 := constantI S_ 1 1#1
  let main_v22 : IVec S_ 1 := (fun x v => Host.reduce IntOp.andi x v reducesTo_S256x100_S_d0_1 h_S_) main_v21 main_c_7
  let main_v23 : IVec S_ 1 := andi main_v18 main_v22
  let main_v24 : FVec F S256x100 .f32 := Host.absf main_arg5
  let main_cst_8 : FVec F S_ .f32 := constant S_ .f32 0x7F800000#32
  let main_v25 : FVec F S256x100 .f32 := broadcastInDim S256x100 ![] bcast_S_S256x100 main_cst_8
  let main_v26 : IVec S256x100 1 := cmpf .olt main_v24 main_v25
  let main_c_9 : IVec S_ 1 := constantI S_ 1 1#1
  let main_v27 : IVec S_ 1 := (fun x v => Host.reduce IntOp.andi x v reducesTo_S256x100_S_d0_1 h_S_) main_v26 main_c_9
  let main_v28 : IVec S_ 1 := andi main_v23 main_v27
  main_v28

def fn {F : FTy → Type} [FloatOps F] (main_arg0 : FVec F S256x768 .f32) (main_arg1 : FVec F S256x768 .f32) (main_arg2 : FVec F S256x100x1x768 .f32) (main_arg3 : FVec F S256x100x1x768 .f32) (main_arg4 : FVec F S256x100 .f32) (main_arg5 : FVec F S256x100 .f32) : IVec S_ 1 :=
  let main_v0 : FVec F S256x768 .f32 := Host.absf main_arg0
  let main_cst : FVec F S_ .f32 := constant S_ .f32 0x7F800000#32
  let main_v1 : FVec F S256x768 .f32 := broadcastInDim S256x768 ![] bcast_S_S256x768 main_cst
  let main_v2 : IVec S256x768 1 := cmpf .olt main_v0 main_v1
  let main_c : IVec S_ 1 := constantI S_ 1 1#1
  let main_v3 : IVec S_ 1 := (fun x v => Host.reduce IntOp.andi x v reducesTo_S256x768_S_d0_1 h_S_) main_v2 main_c
  let main_v4 : FVec F S256x768 .f32 := Host.absf main_arg1
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S256x100x1x768 .f32 := Host.absf main_arg2
  let main_cst_2 : FVec F S_ .f32 := constant S_ .f32 0x7F800000#32
  let main_v10 : FVec F S256x100x1x768 .f32 := broadcastInDim S256x100x1x768 ![] bcast_S_S256x100x1x768 main_cst_2
  let main_v11 : IVec S256x100x1x768 1 := cmpf .olt main_v9 main_v10
  let main_c_3 : IVec S_ 1 := constantI S_ 1 1#1
  let main_v12 : IVec S_ 1 := (fun x v => Host.reduce IntOp.andi x v reducesTo_S256x100x1x768_S_d0_1_2_3 h_S_) main_v11 main_c_3
  let main_v13 : IVec S_ 1 := andi main_v8 main_v12
  let main_v14 : FVec F S256x100x1x768 .f32 := Host.absf main_arg3
  let main_cst_4 : FVec F S_ .f32 := constant S_ .f32 0x7F800000#32
  let main_v15 : FVec F S256x100x1x768 .f32 := broadcastInDim S256x100x1x768 ![] bcast_S_S256x100x1x768 main_cst_4
  let main_v16 : IVec S256x100x1x768 1 := cmpf .olt main_v14 main_v15
  fn_part1 (F := F) main_arg4 main_arg5 main_v13 main_v16
-- ==== Kernel.lean ====
abbrev S256x768 : Shape := ⟨2, ![256, 768]⟩
abbrev S256x100x1x768 : Shape := ⟨4, ![256, 100, 1, 768]⟩
abbrev S256x100 : Shape := ⟨2, ![256, 100]⟩
abbrev S256x80 : Shape := ⟨2, ![256, 80]⟩
abbrev S_ : Shape := ⟨0, ![]⟩
abbrev S256 : Shape := ⟨1, ![256]⟩
abbrev S256x1 : Shape := ⟨2, ![256, 1]⟩
abbrev S1 : Shape := ⟨1, ![1]⟩
abbrev S80 : Shape := ⟨1, ![80]⟩
abbrev S1x80 : Shape := ⟨2, ![1, 80]⟩
abbrev S256x80x768 : Shape := ⟨3, ![256, 80, 768]⟩
abbrev S8x80 : Shape := ⟨2, ![8, 80]⟩
abbrev S8x80x1x768 : Shape := ⟨4, ![8, 80, 1, 768]⟩
abbrev S8x80x768 : Shape := ⟨3, ![8, 80, 768]⟩
abbrev S8x80x80 : Shape := ⟨3, ![8, 80, 80]⟩
abbrev S8x80x1 : Shape := ⟨3, ![8, 80, 1]⟩
abbrev S81 : Shape := ⟨1, ![81]⟩
abbrev S1x81 : Shape := ⟨2, ![1, 81]⟩
abbrev S256x81 : Shape := ⟨2, ![256, 81]⟩

abbrev nBuf : Space → Nat
  | .hbm => 67
  | .vmem => 12
  | .smem => 0
  | _ => 0

abbrev bufTy : (tb : Table) → Fin (tcTables nBuf tb) → BufTy
  | .hbm, ⟨0, _⟩ => ⟨S256x768, .f32⟩
  | .hbm, ⟨1, _⟩ => ⟨S256x768, .f32⟩
  | .hbm, ⟨2, _⟩ => ⟨S256x100x1x768, .f32⟩
  | .hbm, ⟨3, _⟩ => ⟨S256x100x1x768, .f32⟩
  | .hbm, ⟨4, _⟩ => ⟨S256x100, .f32⟩
  | .hbm, ⟨5, _⟩ => ⟨S256x100, .f32⟩
  | .hbm, ⟨6, _⟩ => ⟨S256x80, .f32⟩
  | .hbm, ⟨7, _⟩ => ⟨S256x80, .f32⟩
  | .hbm, ⟨8, _⟩ => ⟨S_, .f32⟩
  | .hbm, ⟨9, _⟩ => ⟨S256x80, .f32⟩
  | .hbm, ⟨10, _⟩ => ⟨S256x80, .i1⟩
  | .hbm, ⟨11, _⟩ => ⟨S256x80, .i32⟩
  | .hbm, ⟨12, _⟩ => ⟨S_, .f32⟩
  | .hbm, ⟨13, _⟩ => ⟨S256x80, .f32⟩
  | .hbm, ⟨14, _⟩ => ⟨S256x80, .i1⟩
  | .hbm, ⟨15, _⟩ => ⟨S_, .f32⟩
  | .hbm, ⟨16, _⟩ => ⟨S_, .f32⟩
  | .hbm, ⟨17, _⟩ => ⟨S256x80, .f32⟩
  | .hbm, ⟨18, _⟩ => ⟨S256x80, .f32⟩
  | .hbm, ⟨19, _⟩ => ⟨S_, .f32⟩
  | .hbm, ⟨20, _⟩ => ⟨S256x80, .f32⟩
  | .hbm, ⟨21, _⟩ => ⟨S256x80, .i1⟩
  | .hbm, ⟨22, _⟩ => ⟨S_, .i1⟩
  | .hbm, ⟨23, _⟩ => ⟨S256, .i1⟩
  | .hbm, ⟨24, _⟩ => ⟨S256x1, .f32⟩
  | .hbm, ⟨25, _⟩ => ⟨S256, .f32⟩
  | .hbm, ⟨26, _⟩ => ⟨S_, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S_, .i32⟩
  | .hbm, ⟨31, _⟩ => ⟨S1, .i32⟩
  | .hbm, ⟨32, _⟩ => ⟨S256x80, .f32⟩
  | .hbm, ⟨33, _⟩ => ⟨S_, .i32⟩
  | .hbm, ⟨34, _⟩ => ⟨S256, .i32⟩
  | .hbm, ⟨35, _⟩ => ⟨S_, .i32⟩
  | .hbm, ⟨36, _⟩ => ⟨S256x80, .i32⟩
  | .hbm, ⟨37, _⟩ => ⟨S256x80, .i32⟩
  | .hbm, ⟨38, _⟩ => ⟨S256x80, .i32⟩
  | .hbm, ⟨39, _⟩ => ⟨S256x80, .i32⟩
  | .hbm, ⟨40, _⟩ => ⟨S256x80, .i32⟩
  | .hbm, ⟨41, _⟩ => ⟨S80, .i32⟩
  | .hbm, ⟨42, _⟩ => ⟨S1x80, .i32⟩
  | .hbm, ⟨43, _⟩ => ⟨S256x1, .i32⟩
  | .hbm, ⟨44, _⟩ => ⟨S256x80, .i32⟩
  | .hbm, ⟨45, _⟩ => ⟨S256x80, .i32⟩
  | .hbm, ⟨46, _⟩ => ⟨S256x80, .i1⟩
  | .hbm, ⟨47, _⟩ => ⟨S256x80, .f32⟩
  | .hbm, ⟨48, _⟩ => ⟨S256x80x768, .f32⟩
  | .hbm, ⟨49, _⟩ => ⟨S256x80x768, .f32⟩
  | .hbm, ⟨50, _⟩ => ⟨S81, .i32⟩
  | .hbm, ⟨51, _⟩ => ⟨S1x81, .i32⟩
  | .hbm, ⟨52, _⟩ => ⟨S256x1, .i32⟩
  | .hbm, ⟨53, _⟩ => ⟨S256x81, .i32⟩
  | .hbm, ⟨54, _⟩ => ⟨S256x81, .i32⟩
  | .hbm, ⟨55, _⟩ => ⟨S256x81, .i1⟩
  | .hbm, ⟨56, _⟩ => ⟨S256x81, .f32⟩
  | .hbm, ⟨57, _⟩ => ⟨S_, .f32⟩
  | .hbm, ⟨58, _⟩ => ⟨S256x81, .f32⟩
  | .hbm, ⟨59, _⟩ => ⟨S1, .i32⟩
  | .hbm, ⟨60, _⟩ => ⟨S_, .i32⟩
  | .hbm, ⟨61, _⟩ => ⟨S81, .i32⟩
  | .hbm, ⟨62, _⟩ => ⟨S81, .i1⟩
  | .hbm, ⟨63, _⟩ => ⟨S81, .f32⟩
  | .hbm, ⟨64, _⟩ => ⟨S_, .i32⟩
  | .hbm, ⟨65, _⟩ => ⟨S1, .i32⟩
  | .hbm, ⟨66, _⟩ => ⟨S256x81, .f32⟩
  | .local _ .vmem, ⟨0, _⟩ => ⟨S8x80, .i32⟩
  | .local _ .vmem, ⟨1, _⟩ => ⟨S8x80, .i32⟩
  | .local _ .vmem, ⟨2, _⟩ => ⟨S8x80x1x768, .f32⟩
  | .local _ .vmem, ⟨3, _⟩ => ⟨S8x80x1x768, .f32⟩
  | .local _ .vmem, ⟨4, _⟩ => ⟨S8x80x1x768, .f32⟩
  | .local _ .vmem, ⟨5, _⟩ => ⟨S8x80x1x768, .f32⟩
  | .local _ .vmem, ⟨6, _⟩ => ⟨S8x80, .f32⟩
  | .local _ .vmem, ⟨7, _⟩ => ⟨S8x80, .f32⟩
  | .local _ .vmem, ⟨8, _⟩ => ⟨S8x80x768, .f32⟩
  | .local _ .vmem, ⟨9, _⟩ => ⟨S8x80x768, .f32⟩
  | .local _ .vmem, ⟨10, _⟩ => ⟨S8x80x768, .f32⟩
  | .local _ .vmem, ⟨11, _⟩ => ⟨S8x80x768, .f32⟩
  | _, _ => ⟨S256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v13 : Ref sig .tc := ⟨.hbm, 29, rfl⟩
abbrev main_c_4 : Ref sig .tc := ⟨.hbm, 30, rfl⟩
abbrev main_v14 : Ref sig .tc := ⟨.hbm, 31, rfl⟩
abbrev main_v15 : Ref sig .tc := ⟨.hbm, 32, rfl⟩
abbrev main_c_5 : Ref sig .tc := ⟨.hbm, 33, rfl⟩
abbrev main_v16 : Ref sig .tc := ⟨.hbm, 34, rfl⟩
abbrev main_c_6 : Ref sig .tc := ⟨.hbm, 35, rfl⟩
abbrev main_v17 : Ref sig .tc := ⟨.hbm, 36, rfl⟩
abbrev main_v18 : Ref sig .tc := ⟨.hbm, 37, rfl⟩
abbrev main_call2_v0 : Ref sig .tc := ⟨.hbm, 38, rfl⟩
abbrev main_call2_v1_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27_0 : Ref sig .tc := ⟨.hbm, 48, rfl⟩
abbrev main_v27_1 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x80 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x80x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x80x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x80x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x80x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S256x100_S256x80_0_0 : S256x100.Slices ![0, 0] S256x80
  bcast_S_S256x80 : S_.BroadcastsInDim S256x80 (![] : Fin 0 → Fin S256x80.rank)
  natLt_1_32 : 1 < 32
  reducesTo_S256x80_S256_d1 : S256x80.ReducesTo [1] S256
  h_S_ : 0 < S_.numel
  slices_S256x80_S256x1_0_0 : S256x80.Slices ![0, 0] S256x1
  shapeCasts_S256x1_S256 : S256x1.ShapeCasts S256
  bcast_S_S256 : S_.BroadcastsInDim S256 (![] : Fin 0 → Fin S256.rank)
  bcast_S_S1 : S_.BroadcastsInDim S1 (![] : Fin 0 → Fin S1.rank)
  bcast_S80_S1x80_1 : S80.BroadcastsInDim S1x80 (![1] : Fin 1 → Fin S1x80.rank)
  bcast_S256_S256x1_0 : S256.BroadcastsInDim S256x1 (![0] : Fin 1 → Fin S256x1.rank)
  bcast_S1x80_S256x80_0_1 : S1x80.BroadcastsInDim S256x80 (![0, 1] : Fin 2 → Fin S256x80.rank)
  bcast_S256x1_S256x80_0_1 : S256x1.BroadcastsInDim S256x80 (![0, 1] : Fin 2 → Fin S256x80.rank)
  inb_S8x80_S8x80_0_0 : ∀ a, (![0, 0] : Fin 2 → Nat) a + S8x80.size a ≤ S8x80.size a
  h_S8x80 : 0 < S8x80.numel
  shapeCasts_S8x80_S8x80 : S8x80.ShapeCasts S8x80
  inb_S8x80x1x768_S8x80x1x768_0_0_0_0 : ∀ a, (![0, 0, 0, 0] : Fin 4 → Nat) a + S8x80x1x768.size a ≤ S8x80x1x768.size a
  h_S8x80x1x768 : 0 < S8x80x1x768.numel
  shapeCasts_S8x80x1x768_S8x80x768 : S8x80x1x768.ShapeCasts S8x80x768
  iota_S8x80x80_d2_w32 : S8x80x80.Iotas .tc 32 [2]
  shapeCasts_S8x80_S8x80x1 : S8x80.ShapeCasts S8x80x1
  broadcasts_S8x80x1_S8x80x80 : S8x80x1.Broadcasts S8x80x80
  broadcasts_S8x80x1_S8x80x768 : S8x80x1.Broadcasts S8x80x768
  inb_S8x80x768_S8x80x768_0_0_0 : ∀ a, (![0, 0, 0] : Fin 3 → Nat) a + S8x80x768.size a ≤ S8x80x768.size a
  h_S8x80x768 : 0 < S8x80x768.numel
  bcast_S81_S1x81_1 : S81.BroadcastsInDim S1x81 (![1] : Fin 1 → Fin S1x81.rank)
  bcast_S1x81_S256x81_0_1 : S1x81.BroadcastsInDim S256x81 (![0, 1] : Fin 2 → Fin S256x81.rank)
  bcast_S256x1_S256x81_0_1 : S256x1.BroadcastsInDim S256x81 (![0, 1] : Fin 2 → Fin S256x81.rank)
  bcast_S_S256x81 : S_.BroadcastsInDim S256x81 (![] : Fin 0 → Fin S256x81.rank)
  slices_S256_S1_255 : S256.Slices ![255] S1
  shapeCasts_S1_S_ : S1.ShapeCasts S_
  bcast_S_S81 : S_.BroadcastsInDim S81 (![] : Fin 0 → Fin S81.rank)
  scatter_S256x80_S1_S256_0_1_1_0_wf : ScatterDims.WF S256x80 S1 S256 [0] [1] [1] 0
  dot_S8x80x80_S8x80x768_S8x80x768_2_1_1_2_0_0_wf : DotDims.WF S8x80x80 S8x80x768 S8x80x768 [2] [1] [1] [2] [0] [0]
  scatter_S256x81_S1_S81_0_0_0_0_wf : ScatterDims.WF S256x81 S1 S81 [0] [0] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x80.size a ≤ S256x80.size a
  hwx0_0 : ∀ i : grid0.Coords, EltTy.bits .i32 = 32 ∨ (Rect.block (s := S256x80) S8x80.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8x80x1x768.size a < S256x100x1x768.size a
  hwx0_1 : ∀ i : grid0.Coords, EltTy.bits .f32 = 32 ∨ (Rect.unit (s := S256x100x1x768) (fun a => cc0_transform_1 i a * S8x80x1x768.size a) (fun a => (Pipeline.Clip.of (cc0_transform_1 i a) (S8x80x1x768.size a) (S256x100x1x768.size a)).extent (S8x80x1x768.size a)) fun a => Pipeline.Clip.inb (Pipeline.Clip.ok_of (hstart0_1 i a))).WholeWords (EltTy.packing .f32)
  hwxs0_1 : ∀ i : grid0.Coords, EltTy.bits .f32 = 32 ∨ (Rect.unit (s := S8x80x1x768) (fun _ => 0) (fun a => (Pipeline.Clip.of (cc0_transform_1 i a) (S8x80x1x768.size a) (S256x100x1x768.size a)).extent (S8x80x1x768.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8x80x1x768.size a < S256x100x1x768.size a
  hwx0_2 : ∀ i : grid0.Coords, EltTy.bits .f32 = 32 ∨ (Rect.unit (s := S256x100x1x768) (fun a => cc0_transform_2 i a * S8x80x1x768.size a) (fun a => (Pipeline.Clip.of (cc0_transform_2 i a) (S8x80x1x768.size a) (S256x100x1x768.size a)).extent (S8x80x1x768.size a)) fun a => Pipeline.Clip.inb (Pipeline.Clip.ok_of (hstart0_2 i a))).WholeWords (EltTy.packing .f32)
  hwxs0_2 : ∀ i : grid0.Coords, EltTy.bits .f32 = 32 ∨ (Rect.unit (s := S8x80x1x768) (fun _ => 0) (fun a => (Pipeline.Clip.of (cc0_transform_2 i a) (S8x80x1x768.size a) (S256x100x1x768.size a)).extent (S8x80x1x768.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x80.size a ≤ S256x80.size a
  hwx0_3 : ∀ i : grid0.Coords, EltTy.bits .f32 = 32 ∨ (Rect.block (s := S256x80) S8x80.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x80x768.size a ≤ S256x80x768.size a
  hwx0_4 : ∀ i : grid0.Coords, EltTy.bits .f32 = 32 ∨ (Rect.block (s := S256x80x768) S8x80x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x80x768.size a ≤ S256x80x768.size a
  hwx0_5 : ∀ i : grid0.Coords, EltTy.bits .f32 = 32 ∨ (Rect.block (s := S256x80x768) S8x80x768.size (cc0_transform_5 i) (hinb0_5 i)).WholeWords (EltTy.packing .f32)

variable [Facts₀]

def scatter_S256x80_S1_S256_0_1_1_0 : ScatterDims S256x80 S1 S256 where
  updateWindowDims := [0]
  insertedWindowDims := [1]
  scatterDimsToOperandDims := [1]
  indexVectorDim := 0
  wf := scatter_S256x80_S1_S256_0_1_1_0_wf
def comparator_i32_i32_d1 : BitVec 32 × BitVec 32 → BitVec 32 × BitVec 32 → BitVec 1 :=
  fun l r =>
    let v2 := IntOp.cmpi .slt l.1 r.1
    v2
def dot_S8x80x80_S8x80x768_S8x80x768_2_1_1_2_0_0 : DotDims S8x80x80 S8x80x768 S8x80x768 where
  lhsContracting := [2]
  rhsContracting := [1]
  lhsNonContracting := [1]
  rhsNonContracting := [2]
  lhsBatch := [0]
  rhsBatch := [0]
  wf := dot_S8x80x80_S8x80x768_S8x80x768_2_1_1_2_0_0_wf
def scatter_S256x81_S1_S81_0_0_0_0 : ScatterDims S256x81 S1 S81 where
  updateWindowDims := [0]
  insertedWindowDims := [0]
  scatterDimsToOperandDims := [0]
  indexVectorDim := 0
  wf := scatter_S256x81_S1_S81_0_0_0_0_wf

abbrev win0_0 : Pipeline.Window sig grid0 :=
  Pipeline.Window.ofSpec (Memref.whole main_v19) S8x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S8x80x1x768.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg3) S8x80x1x768.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v26) S8x80.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27_0) S8x80x768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v27_1) S8x80x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x768 : Shape := ⟨2, ![256, 768]⟩
abbrev S256x100x1x768 : Shape := ⟨4, ![256, 100, 1, 768]⟩
abbrev S256x100 : Shape := ⟨2, ![256, 100]⟩
abbrev S256x100x768 : Shape := ⟨3, ![256, 100, 768]⟩
abbrev S256x80x768 : Shape := ⟨3, ![256, 80, 768]⟩
abbrev S256x80 : Shape := ⟨2, ![256, 80]⟩
abbrev S_ : Shape := ⟨0, ![]⟩
abbrev S256 : Shape := ⟨1, ![256]⟩
abbrev S256x1 : Shape := ⟨2, ![256, 1]⟩
abbrev S1 : Shape := ⟨1, ![1]⟩
abbrev S256x80x1 : Shape := ⟨3, ![256, 80, 1]⟩
abbrev S1x1x1 : Shape := ⟨3, ![1, 1, 1]⟩
abbrev S80 : Shape := ⟨1, ![80]⟩
abbrev S1x80 : Shape := ⟨2, ![1, 80]⟩
abbrev S81 : Shape := ⟨1, ![81]⟩
abbrev S1x81 : Shape := ⟨2, ![1, 81]⟩
abbrev S256x81 : Shape := ⟨2, ![256, 81]⟩

abbrev nBuf : Space → Nat
  | .hbm => 134
  | .vmem => 0
  | .smem => 0
  | _ => 0

abbrev hbmTy0_0 (i : Nat) : BufTy := match i % 128 with
  | 0 => ⟨S256x768, .f32⟩
  | 1 => ⟨S256x768, .f32⟩
  | 2 => ⟨S256x100x1x768, .f32⟩
  | 3 => ⟨S256x100x1x768, .f32⟩
  | 4 => ⟨S256x100, .f32⟩
  | 5 => ⟨S256x100, .f32⟩
  | 6 => ⟨S256x100x768, .f32⟩
  | 7 => ⟨S256x80x768, .f32⟩
  | 8 => ⟨S256x100x768, .f32⟩
  | 9 => ⟨S256x80x768, .f32⟩
  | 10 => ⟨S256x80, .f32⟩
  | 11 => ⟨S256x80, .f32⟩
  | 12 => ⟨S_, .f32⟩
  | 13 => ⟨S256x80, .f32⟩
  | 14 => ⟨S256x80, .i1⟩
  | 15 => ⟨S256x80, .i32⟩
  | 16 => ⟨S_, .f32⟩
  | 17 => ⟨S256x80, .f32⟩
  | 18 => ⟨S256x80, .i1⟩
  | 19 => ⟨S_, .f32⟩
  | 20 => ⟨S_, .f32⟩
  | 21 => ⟨S256x80, .f32⟩
  | 22 => ⟨S256x80, .f32⟩
  | 23 => ⟨S_, .f32⟩
  | 24 => ⟨S256x80, .f32⟩
  | 25 => ⟨S256x80, .i1⟩
  | 26 => ⟨S_, .i1⟩
  | 27 => ⟨S256, .i1⟩
  | 28 => ⟨S256x1, .f32⟩
  | 29 => ⟨S256, .f32⟩
  | 30 => ⟨S_, .f32⟩
  | 31 => ⟨S_, .f32⟩
  | 32 => ⟨S256, .f32⟩
  | 33 => ⟨S256, .f32⟩
  | 34 => ⟨S_, .i32⟩
  | 35 => ⟨S1, .i32⟩
  | 36 => ⟨S256x80, .f32⟩
  | 37 => ⟨S_, .i32⟩
  | 38 => ⟨S256, .i32⟩
  | 39 => ⟨S_, .i32⟩
  | 40 => ⟨S256x80, .i32⟩
  | 41 => ⟨S256x80, .i32⟩
  | 42 => ⟨S256x80, .i32⟩
  | 43 => ⟨S256x80, .i32⟩
  | 44 => ⟨S256x80, .i32⟩
  | 45 => ⟨S256x80x1, .i32⟩
  | 46 => ⟨S_, .i32⟩
  | 47 => ⟨S256x80x1, .i32⟩
  | 48 => ⟨S256x80x1, .i1⟩
  | 49 => ⟨S_, .i32⟩
  | 50 => ⟨S256x80x1, .i32⟩
  | 51 => ⟨S256x80x1, .i32⟩
  | 52 => ⟨S256x80x1, .i32⟩
  | 53 => ⟨S1, .i32⟩
  | 54 => ⟨S_, .i32⟩
  | 55 => ⟨S256x80x1, .i32⟩
  | 56 => ⟨S256x80x1, .i1⟩
  | 57 => ⟨S1x1x1, .i32⟩
  | 58 => ⟨S256x80x1, .i32⟩
  | 59 => ⟨S256x80x1, .i1⟩
  | 60 => ⟨S256x80x1, .i1⟩
  | 61 => ⟨S_, .i1⟩
  | 62 => ⟨S256x80, .i1⟩
  | 63 => ⟨S256x80x768, .f32⟩
  | 64 => ⟨S256x80x768, .i1⟩
  | 65 => ⟨S_, .f32⟩
  | 66 => ⟨S256x80x768, .f32⟩
  | 67 => ⟨S256x80x768, .f32⟩
  | 68 => ⟨S80, .i32⟩
  | 69 => ⟨S1x80, .i32⟩
  | 70 => ⟨S256x1, .i32⟩
  | 71 => ⟨S256x80, .i32⟩
  | 72 => ⟨S256x80, .i32⟩
  | 73 => ⟨S256x80, .i1⟩
  | 74 => ⟨S256x80x1, .i1⟩
  | 75 => ⟨S256x80x1, .f32⟩
  | 76 => ⟨S256x80x768, .f32⟩
  | 77 => ⟨S256x80x768, .f32⟩
  | 78 => ⟨S_, .i32⟩
  | 79 => ⟨S256x80, .i32⟩
  | 80 => ⟨S256x80, .i32⟩
  | 81 => ⟨S256x80, .i32⟩
  | 82 => ⟨S256x80, .i32⟩
  | 83 => ⟨S256x80, .i32⟩
  | 84 => ⟨S256x80x1, .i32⟩
  | 85 => ⟨S_, .i32⟩
  | 86 => ⟨S256x80x1, .i32⟩
  | 87 => ⟨S256x80x1, .i1⟩
  | 88 => ⟨S_, .i32⟩
  | 89 => ⟨S256x80x1, .i32⟩
  | 90 => ⟨S256x80x1, .i32⟩
  | 91 => ⟨S256x80x1, .i32⟩
  | 92 => ⟨S1, .i32⟩
  | 93 => ⟨S_, .i32⟩
  | 94 => ⟨S256x80x1, .i32⟩
  | 95 => ⟨S256x80x1, .i1⟩
  | 96 => ⟨S1x1x1, .i32⟩
  | 97 => ⟨S256x80x1, .i32⟩
  | 98 => ⟨S256x80x1, .i1⟩
  | 99 => ⟨S256x80x1, .i1⟩
  | 100 => ⟨S_, .i1⟩
  | 101 => ⟨S256x80, .i1⟩
  | 102 => ⟨S256x80x768, .f32⟩
  | 103 => ⟨S256x80x768, .i1⟩
  | 104 => ⟨S_, .f32⟩
  | 105 => ⟨S256x80x768, .f32⟩
  | 106 => ⟨S256x80x768, .f32⟩
  | 107 => ⟨S80, .i32⟩
  | 108 => ⟨S1x80, .i32⟩
  | 109 => ⟨S256x1, .i32⟩
  | 110 => ⟨S256x80, .i32⟩
  | 111 => ⟨S256x80, .i32⟩
  | 112 => ⟨S256x80, .i1⟩
  | 113 => ⟨S256x80x1, .i1⟩
  | 114 => ⟨S256x80x1, .f32⟩
  | 115 => ⟨S256x80x768, .f32⟩
  | 116 => ⟨S256x80x768, .f32⟩
  | 117 => ⟨S81, .i32⟩
  | 118 => ⟨S1x81, .i32⟩
  | 119 => ⟨S256x1, .i32⟩
  | 120 => ⟨S256x81, .i32⟩
  | 121 => ⟨S256x81, .i32⟩
  | 122 => ⟨S256x81, .i1⟩
  | 123 => ⟨S256x81, .f32⟩
  | 124 => ⟨S_, .f32⟩
  | 125 => ⟨S256x81, .f32⟩
  | 126 => ⟨S1, .i32⟩
  | 127 => ⟨S_, .i32⟩
  | _ => ⟨S256x768, .f32⟩

abbrev hbmTy0_1 (i : Nat) : BufTy := match i % 128 with
  | 0 => ⟨S81, .i32⟩
  | 1 => ⟨S81, .i1⟩
  | 2 => ⟨S81, .f32⟩
  | 3 => ⟨S_, .i32⟩
  | 4 => ⟨S1, .i32⟩
  | 5 => ⟨S256x81, .f32⟩
  | _ => ⟨S256x768, .f32⟩

abbrev hbmTy (i : Nat) : BufTy := match i / 128 with
  | 0 => hbmTy0_0 i
  | 1 => hbmTy0_1 i
  | _ => ⟨S256x768, .f32⟩

abbrev bufTy : (tb : Table) → Fin (tcTables nBuf tb) → BufTy
  | .hbm, ⟨i, _⟩ => hbmTy i
  | _, _ => ⟨S256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_call2_v0 : Ref sig .tc := ⟨.hbm, 42, rfl⟩
abbrev main_call2_v1_0 : Ref sig .tc := ⟨.hbm, 43, rfl⟩
abbrev main_v23 : Ref sig .tc := ⟨.hbm, 44, rfl⟩
abbrev main_v24 : Ref sig .tc := ⟨.hbm, 45, rfl⟩
abbrev main_call3_c : Ref sig .tc := ⟨.hbm, 46, rfl⟩
abbrev main_call3_v0 : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_c_1 : Ref sig .tc := ⟨.hbm, 53, rfl⟩
abbrev main_call3_c_2 : Ref sig .tc := ⟨.hbm, 54, rfl⟩
abbrev main_call3_v5 : Ref sig .tc := ⟨.hbm, 55, rfl⟩
abbrev main_call3_v6 : Ref sig .tc := ⟨.hbm, 56, rfl⟩
abbrev main_call3_v7 : Ref sig .tc := ⟨.hbm, 57, rfl⟩
abbrev main_call3_v8 : Ref sig .tc := ⟨.hbm, 58, rfl⟩
abbrev main_call3_v9 : Ref sig .tc := ⟨.hbm, 59, rfl⟩
abbrev main_call3_v10 : Ref sig .tc := ⟨.hbm, 60, rfl⟩
abbrev main_call3_c_3 : Ref sig .tc := ⟨.hbm, 61, rfl⟩
abbrev main_call3_v11 : Ref sig .tc := ⟨.hbm, 62, rfl⟩
abbrev main_call3_v12 : Ref sig .tc := ⟨.hbm, 63, rfl⟩
abbrev main_call3_v13 : Ref sig .tc := ⟨.hbm, 64, rfl⟩
abbrev main_call3_cst : Ref sig .tc := ⟨.hbm, 65, rfl⟩
abbrev main_call3_v14 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_c_7 : Ref sig .tc := ⟨.hbm, 78, rfl⟩
abbrev main_v36 : Ref sig .tc := ⟨.hbm, 79, rfl⟩
abbrev main_v37 : Ref sig .tc := ⟨.hbm, 80, rfl⟩
abbrev main_call4_v0 : Ref sig .tc := ⟨.hbm, 81, rfl⟩
abbrev main_call4_v1_0 : Ref sig .tc := ⟨.hbm, 82, rfl⟩
abbrev main_v38 : Ref sig .tc := ⟨.hbm, 83, rfl⟩
abbrev main_v39 : Ref sig .tc := ⟨.hbm, 84, rfl⟩
abbrev main_call5_c : Ref sig .tc := ⟨.hbm, 85, rfl⟩
abbrev main_call5_v0 : Ref sig .tc := ⟨.hbm, 86, rfl⟩
abbrev main_call5_v1 : Ref sig .tc := ⟨.hbm, 87, rfl⟩
abbrev main_call5_c_0 : Ref sig .tc := ⟨.hbm, 88, rfl⟩
abbrev main_call5_v2 : Ref sig .tc := ⟨.hbm, 89, rfl⟩
abbrev main_call5_v3 : Ref sig .tc := ⟨.hbm, 90, rfl⟩
abbrev main_call5_v4 : Ref sig .tc := ⟨.hbm, 91, rfl⟩
abbrev main_call5_c_1 : Ref sig .tc := ⟨.hbm, 92, rfl⟩
abbrev main_call5_c_2 : Ref sig .tc := ⟨.hbm, 93, rfl⟩
abbrev main_call5_v5 : Ref sig .tc := ⟨.hbm, 94, rfl⟩
abbrev main_call5_v6 : Ref sig .tc := ⟨.hbm, 95, rfl⟩
abbrev main_call5_v7 : Ref sig .tc := ⟨.hbm, 96, rfl⟩
abbrev main_call5_v8 : Ref sig .tc := ⟨.hbm, 97, rfl⟩
abbrev main_call5_v9 : Ref sig .tc := ⟨.hbm, 98, rfl⟩
abbrev main_call5_v10 : Ref sig .tc := ⟨.hbm, 99, rfl⟩
abbrev main_call5_c_3 : Ref sig .tc := ⟨.hbm, 100, rfl⟩
abbrev main_call5_v11 : Ref sig .tc := ⟨.hbm, 101, rfl⟩
abbrev main_call5_v12 : Ref sig .tc := ⟨.hbm, 102, rfl⟩
abbrev main_call5_v13 : Ref sig .tc := ⟨.hbm, 103, rfl⟩
abbrev main_call5_cst : Ref sig .tc := ⟨.hbm, 104, rfl⟩
abbrev main_call5_v14 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_cst_8 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_c_9 : Ref sig .tc := ⟨.hbm, 131, rfl⟩
abbrev main_v64 : Ref sig .tc := ⟨.hbm, 132, rfl⟩
abbrev main_v65 : Ref sig .tc := ⟨.hbm, 133, rfl⟩

abbrev nD : Nat := 1
abbrev τ : Topo := Topo.v7x

variable {F : FTy → Type} [FloatOps F]

class Facts₀ : Prop where
  shapeCasts_S256x100x1x768_S256x100x768 : S256x100x1x768.ShapeCasts S256x100x768
  slices_S256x100x768_S256x80x768_0_0_0 : S256x100x768.Slices ![0, 0, 0] S256x80x768
  slices_S256x100_S256x80_0_0 : S256x100.Slices ![0, 0] S256x80
  bcast_S_S256x80 : S_.BroadcastsInDim S256x80 (![] : Fin 0 → Fin S256x80.rank)
  natLt_1_32 : 1 < 32
  reducesTo_S256x80_S256_d1 : S256x80.ReducesTo [1] S256
  h_S_ : 0 < S_.numel
  slices_S256x80_S256x1_0_0 : S256x80.Slices ![0, 0] S256x1
  shapeCasts_S256x1_S256 : S256x1.ShapeCasts S256
  bcast_S_S256 : S_.BroadcastsInDim S256 (![] : Fin 0 → Fin S256.rank)
  bcast_S_S1 : S_.BroadcastsInDim S1 (![] : Fin 0 → Fin S1.rank)
  bcast_S256x80_S256x80x1_0_1 : S256x80.BroadcastsInDim S256x80x1 (![0, 1] : Fin 2 → Fin S256x80x1.rank)
  bcast_S_S256x80x1 : S_.BroadcastsInDim S256x80x1 (![] : Fin 0 → Fin S256x80x1.rank)
  bcast_S1_S1x1x1_2 : S1.BroadcastsInDim S1x1x1 (![2] : Fin 1 → Fin S1x1x1.rank)
  bcast_S1x1x1_S256x80x1_0_1_2 : S1x1x1.BroadcastsInDim S256x80x1 (![0, 1, 2] : Fin 3 → Fin S256x80x1.rank)
  reducesTo_S256x80x1_S256x80_d2 : S256x80x1.ReducesTo [2] S256x80
  bcast_S256x80_S256x80x768_0_1 : S256x80.BroadcastsInDim S256x80x768 (![0, 1] : Fin 2 → Fin S256x80x768.rank)
  bcast_S_S256x80x768 : S_.BroadcastsInDim S256x80x768 (![] : Fin 0 → Fin S256x80x768.rank)
  bcast_S80_S1x80_1 : S80.BroadcastsInDim S1x80 (![1] : Fin 1 → Fin S1x80.rank)
  bcast_S256_S256x1_0 : S256.BroadcastsInDim S256x1 (![0] : Fin 1 → Fin S256x1.rank)
  bcast_S1x80_S256x80_0_1 : S1x80.BroadcastsInDim S256x80 (![0, 1] : Fin 2 → Fin S256x80.rank)
  bcast_S256x1_S256x80_0_1 : S256x1.BroadcastsInDim S256x80 (![0, 1] : Fin 2 → Fin S256x80.rank)
  bcast_S256x80x1_S256x80x768_0_1_2 : S256x80x1.BroadcastsInDim S256x80x768 (![0, 1, 2] : Fin 3 → Fin S256x80x768.rank)
  bcast_S81_S1x81_1 : S81.BroadcastsInDim S1x81 (![1] : Fin 1 → Fin S1x81.rank)
  bcast_S1x81_S256x81_0_1 : S1x81.BroadcastsInDim S256x81 (![0, 1] : Fin 2 → Fin S256x81.rank)
  bcast_S256x1_S256x81_0_1 : S256x1.BroadcastsInDim S256x81 (![0, 1] : Fin 2 → Fin S256x81.rank)
  bcast_S_S256x81 : S_.BroadcastsInDim S256x81 (![] : Fin 0 → Fin S256x81.rank)
  slices_S256_S1_255 : S256.Slices ![255] S1
  shapeCasts_S1_S_ : S1.ShapeCasts S_
  bcast_S_S81 : S_.BroadcastsInDim S81 (![] : Fin 0 → Fin S81.rank)
  scatter_S256x80_S1_S256_0_1_1_0_wf : ScatterDims.WF S256x80 S1 S256 [0] [1] [1] 0
  gather_S256x80x768_S256x80x1_S256x80x768_2_1_0_0_1_2_11768_wf : GatherDims.WF S256x80x768 S256x80x1 S256x80x768 [2] [1] [0] [1] [0] 2 ![1, 1, 768]
  scatter_S256x81_S1_S81_0_0_0_0_wf : ScatterDims.WF S256x81 S1 S81 [0] [0] [0] 0

variable [Facts₀]

def scatter_S256x80_S1_S256_0_1_1_0 : ScatterDims S256x80 S1 S256 where
  updateWindowDims := [0]
  insertedWindowDims := [1]
  scatterDimsToOperandDims := [1]
  indexVectorDim := 0
  wf := scatter_S256x80_S1_S256_0_1_1_0_wf
def comparator_i32_i32_d1 : BitVec 32 × BitVec 32 → BitVec 32 × BitVec 32 → BitVec 1 :=
  fun l r =>
    let v2 := IntOp.cmpi .slt l.1 r.1
    v2
def gather_S256x80x768_S256x80x1_S256x80x768_2_1_0_0_1_2_11768 : GatherDims S256x80x768 S256x80x1 S256x80x768 where
  offsetDims := [2]
  collapsedSliceDims := [1]
  operandBatchingDims := [0]
  startIndicesBatchingDims := [0]
  startIndexMap := [1]
  indexVectorDim := 2
  sliceSizes := ![1, 1, 768]
  wf := gather_S256x80x768_S256x80x1_S256x80x768_2_1_0_0_1_2_11768_wf
def scatter_S256x81_S1_S81_0_0_0_0 : ScatterDims S256x81 S1 S81 where
  updateWindowDims := [0]
  insertedWindowDims := [0]
  scatterDimsToOperandDims := [0]
  indexVectorDim := 0
  wf := scatter_S256x81_S1_S81_0_0_0_0_wf

class Facts : Prop extends Facts₀ where

variable [Facts]
-- ==== Proof.PackDataBits.lean ====
/-
  The proof data of the one pallas_call, shared by the frame and by the value of the two results.

  The call runs over 32 grid points; point `t` handles batch rows 8t … 8t+7. Its inputs are the host's
  argsort `order` (i32[256, 80]) and mask `keep` (f32[256, 80]) in (8, 80) blocks, and the two feature arrays
  (f32[256, 100, 1, 768]) in (8, 80, 1, 768) blocks whose block index on the axis of extent 100 is always 0: the
  block is rows 0 … 79 of that axis, so it never reaches past the array's end. Hence the staging buffer of such
  a window is wholly rewritten by every fetch (`fill_indep1`, `fill_indep2`), and what the body computes from
  it depends on the array alone.

  After the body at point `t` the four input buffers hold their blocks, and the two result buffers hold the
  body's two stored values `k0_pay3`, `k0_pay4` of those blocks.
-/
import proofs.«153286_j54949811585479_2_alg».proof.Proof.Gen.Kernel.Frame
import proofs.«153286_j54949811585479_2_alg».proof.Proof.Gen.Kernel.Skeleton
import Idealize.ShloMosaic.Lib.Pipeline.Frame

set_option maxRecDepth 16384

noncomputable section

namespace Cert.Kernel.Pack

open Cert.Kernel Cert.Kernel.Gen
open Idealize.ShloMosaic Idealize.ShloMosaic.TcCoe
open Idealize.SL Idealize.SL.RA Idealize.SL.BI
open scoped Idealize.SL.BI
open Idealize.SL.Sem
open Idealize.ShloMosaic.Rounds
open Idealize.ShloMosaic.Pipeline (Dat Cfg Window)

variable {F : FTy → Type} [FloatOps F]

/-! ## The feature windows' blocks lie inside their arrays -/

/-- At every grid point the transfer of the first feature window moves the whole (8, 80, 1, 768) block. -/
theorem xsize1 : ∀ (t : Fin grid0.N) (a : Fin 4), win0_1.xsize (grid0.coords t) a = S8x80x1x768.size a := by
  decide +kernel
/-- Likewise for the second feature window. -/
theorem xsize2 : ∀ (t : Fin grid0.N) (a : Fin 4), win0_2.xsize (grid0.coords t) a = S8x80x1x768.size a := by
  decide +kernel

/-- So every index of the block is one the fetch writes, -/
theorem moved1 (t : Fin grid0.N) (j : win0_1.block.Idx) : win0_1.moved (grid0.coords t) j = true :=
  (win0_1.moved_iff _ j).mpr fun a => by rw [xsize1 t a]; exact (j a).isLt
theorem moved2 (t : Fin grid0.N) (j : win0_2.block.Idx) : win0_2.moved (grid0.coords t) j = true :=
  (win0_2.moved_iff _ j).mpr fun a => by rw [xsize2 t a]; exact (j a).isLt

/-- and a buffer just fetched holds the block whatever it held before. -/
theorem fill_indep1 {α : Type} (t : Fin grid0.N) (d d' : win0_1.block.Idx → α) (g : (win0_1.xblock (grid0.coords t)).Idx → α) :
    win0_1.fill (grid0.coords t) d g = win0_1.fill (grid0.coords t) d' g := by
  funext j; unfold Window.fill; rw [dif_pos (moved1 t j), dif_pos (moved1 t j)]
theorem fill_indep2 {α : Type} (t : Fin grid0.N) (d d' : win0_2.block.Idx → α) (g : (win0_2.xblock (grid0.coords t)).Idx → α) :
    win0_2.fill (grid0.coords t) d g = win0_2.fill (grid0.coords t) d' g := by
  funext j; unfold Window.fill; rw [dif_pos (moved2 t j), dif_pos (moved2 t j)]

variable (m : (ℓ : Loc nD τ sig) → Buf (Elt F) ℓ)

/-! ## The blocks and the proof data -/

/-- The first feature array's block at point `t`, over the full block shape. -/
def vis8 (c : Dev nD) (t : Fin cfg0.N) : S8x80x1x768.Idx → Elt F .f32 :=
  win0_1.fill (grid0.coords t) (fun _ => Scalar.ofBits .f32 0#32) (iblk m c 1 t)
/-- The second feature array's block at point `t`. -/
def txt8 (c : Dev nD) (t : Fin cfg0.N) : S8x80x1x768.Idx → Elt F .f32 :=
  win0_2.fill (grid0.coords t) (fun _ => Scalar.ofBits .f32 0#32) (iblk m c 2 t)

/-- The proof data of the pipeline on core `c`: the arrays as the region finds them; after the body at point `t`
    each input buffer at its block and the two result buffers at the body's stored values of those blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => vis8 m c t
    | ⟨2, _⟩ => txt8 m c t
    | ⟨3, _⟩ => iblk m c 3 t
    | ⟨4, _⟩ => k0_pay3 (iblk m c 0 t) (vis8 m c t) (iblk m c 3 t)
    | ⟨5, _⟩ => k0_pay4 (iblk m c 0 t) (txt8 m c t) (iblk m c 3 t)
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = vis8 m c t := by dsimp only [dats]
theorem after0_2 (c : Dev nD) (t : Fin cfg0.N) : (dats m 0 c).after 2 t = txt8 m c t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = k0_pay3 (iblk m c 0 t) (vis8 m c t) (iblk m c 3 t) := by dsimp only [dats]
theorem after0_5 (c : Dev nD) (t : Fin cfg0.N) :
    (dats m 0 c).after 5 t = k0_pay4 (iblk m c 0 t) (txt8 m c t) (iblk m c 3 t) := by dsimp only [dats]

end Cert.Kernel.Pack

end
-- ==== Proof.BodyBits.lean ====
/-
  The frame of the packing call, for the bit-exact program.

  The one pallas_call runs over 32 grid points. At each point its body loads four whole staging blocks — the
  order block (i32[8, 80]), the two feature blocks (f32[8, 80, 1, 768]) and the keep block (f32[8, 80]) —, forms
  from the order block a one-hot matrix, multiplies it into each feature block and scales the rows by the keep
  block, and stores the two products whole into the two result blocks (after a load of each whose value nothing
  reads). This file proves the body's triple (`sound_kernel`), states what each staging buffer holds when the body
  runs (`before0_0` … `before0_5`), derives the pipeline's body obligation (`body_obligation`), and from it the
  run of @main (`run_main`) and the frame (`frame`): the program terminates without a fault and leaves its
  argument arrays as launched.

  The two feature windows cut their blocks at the array's end in principle (80 does not divide 100), so the
  obligation states their buffers on the moved part only; as the block index on that axis is always 0, the moved
  part is the whole block, and the buffers hold their blocks outright (PackData's `fill_indep1`, `fill_indep2`).
-/
import proofs.«153286_j54949811585479_2_alg».proof.Proof.PackDataBits
import Idealize.ShloMosaic.Lib.Pipeline.FrameSuffix
import Idealize.ShloMosaic.Lib.Pipeline.Value
import Idealize.ShloMosaic.Lib.Exec.Geometry

set_option maxRecDepth 16384

noncomputable section

namespace Cert.Kernel.Body

open Cert.Kernel Cert.Kernel.Gen Cert.Kernel.Pack

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's triple -/

set_option maxHeartbeats 2000000 in
/-- The kernel body on whole staging memrefs — the order block's at read contents `x0`, the two feature blocks' at
    `x1`, `x2`, the keep block's at `x3`, the two outputs' at anything — runs to the continuation holding the four
    inputs as they were and the outputs at `k0_pay3 x0 x1 x3` and `k0_pay4 x0 x2 x3`: every load and store is through
    the whole-shape rectangle at zero offsets, so a load reads the contents and a store leaves its payload. -/
theorem sound_kernel (c : Dev nD) (E : Set ℕ) (i : grid0.Coords)
    (arg1 : Memref sig .tc .vmem S8x80 .i32) (harg1 : arg1.IsWhole)
    (arg2 : Memref sig .tc .vmem S8x80x1x768 .f32) (harg2 : arg2.IsWhole)
    (arg3 : Memref sig .tc .vmem S8x80x1x768 .f32) (harg3 : arg3.IsWhole)
    (arg4 : Memref sig .tc .vmem S8x80 .f32) (harg4 : arg4.IsWhole)
    (arg5 : Memref sig .tc .vmem S8x80x768 .f32) (harg5 : arg5.IsWhole)
    (arg6 : Memref sig .tc .vmem S8x80x768 .f32) (harg6 : arg6.IsWhole)
    (x0 : Vec F S8x80 .i32) (x1 x2 : Vec F S8x80x1x768 .f32) (x3 : Vec F S8x80 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay3 x0 x1 x3)
            ∗ owns (c : Thread nD τ) arg6 fullShare (k0_pay4 x0 x2 x3)) -∗ K ⟨⟩))
      ⊢ wp frame (wpE (defs₀ (F := F)) Variants.none c none) E
          (cc0__pack_kernel i arg1 harg1 arg2 harg2 arg3 harg3 arg4 harg4 arg5 harg5 arg6 harg6) K := by
  have hz2 : (![0, 0] : Fin 2 → Nat) = fun _ => 0 := funext fun a => by fin_cases a <;> rfl
  have hz3 : (![0, 0, 0] : Fin 3 → Nat) = fun _ => 0 := funext fun a => by fin_cases a <;> rfl
  have hz4 : (![0, 0, 0, 0] : Fin 4 → Nat) = fun _ => 0 := funext fun a => by fin_cases a <;> rfl
  simp only [cc0__pack_kernel_eq_skeleton]; unfold cc0__pack_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  -- a load through the whole-shape rectangle reads the contents
  have r0 : View.readAt (Elt F) arg1.view (Rect.unit ![0, 0] S8x80.size inb_S8x80_S8x80_0_0).toLoadRect f0
      = View.read (Elt F) arg1.view f0 := View.ld_unit_zero hz2 _ _
  have r1 : View.readAt (Elt F) arg2.view (Rect.unit ![0, 0, 0, 0] S8x80x1x768.size inb_S8x80x1x768_S8x80x1x768_0_0_0_0).toLoadRect f1
      = View.read (Elt F) arg2.view f1 := View.ld_unit_zero hz4 _ _
  have r2 : View.readAt (Elt F) arg3.view (Rect.unit ![0, 0, 0, 0] S8x80x1x768.size inb_S8x80x1x768_S8x80x1x768_0_0_0_0).toLoadRect f2
      = View.read (Elt F) arg3.view f2 := View.ld_unit_zero hz4 _ _
  have r3 : View.readAt (Elt F) arg4.view (Rect.unit ![0, 0] S8x80.size inb_S8x80_S8x80_0_0).toLoadRect f3
      = View.read (Elt F) arg4.view f3 := View.ld_unit_zero hz2 _ _
  rw [r0, r1, r2, r3]
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    -- the one store through the whole-shape rectangle covers the buffer and leaves its payload
    rw [View.read_writes_eq_canon _ _ _ (fun y => ⟨_, List.mem_singleton_self _, View.mem_set_unit_zero hz3 inb_S8x80x768_S8x80x768_0_0_0 y⟩),
      View.canon_unit_zero hz3]
  iexists _; isplitr
  swap; · iexact H5
  ipureintro
  rw [View.read_writes_eq_canon _ _ _ (fun y => ⟨_, List.mem_singleton_self _, View.mem_set_unit_zero hz3 inb_S8x80x768_S8x80x768_0_0_0 y⟩),
    View.canon_unit_zero hz3]

variable (m : (ℓ : Loc nD τ sig) → Buf (Elt F) ℓ) (ρ : Dev nD → PrngReg)

/-! ## What the body finds in each staging buffer -/

/-- The order block's buffer holds its block at every point. -/
theorem before0_0 (c : Dev nD) (t : Fin cfg0.N) (d) : (dats m 0 c).before 0 t d = iblk m c 0 t :=
  before0_0_of m (dats m 0 c) (A_eq m c 0) (after0_0 m c) t d
/-- The keep block's likewise. -/
theorem before0_3 (c : Dev nD) (t : Fin cfg0.N) (d) : (dats m 0 c).before 3 t d = iblk m c 3 t :=
  before0_3_of m (dats m 0 c) (A_eq m c 3) (after0_3 m c) t d

/-- A feature window is fetched at every point, and the fetch rewrites the whole buffer: it holds the block,
    whatever it held before. -/
theorem before0_1 (c : Dev nD) (t : Fin cfg0.N) (d) : (dats m 0 c).before 1 t d = vis8 m c t := by
  unfold Dat.before; rw [if_pos (fetch0_1 t)]
  exact fill_indep1 t d _ (iblk m c 1 t)
theorem before0_2 (c : Dev nD) (t : Fin cfg0.N) (d) : (dats m 0 c).before 2 t d = txt8 m c t := by
  unfold Dat.before; rw [if_pos (fetch0_2 t)]
  exact fill_indep2 t d _ (iblk m c 2 t)

/-- A result window is written back at every point, so its buffer arrives at contents nothing names. -/
theorem before0_4 (c : Dev nD) (t : Fin cfg0.N) (d) : (dats m 0 c).before 4 t d = d :=
  (dats m 0 c).before_out_reset 4 rfl t
    (by by_cases h0 : t.val = 0
        · exact .inl h0
        · exact .inr ⟨h0, flush0_4 _⟩) d
theorem before0_5 (c : Dev nD) (t : Fin cfg0.N) (d) : (dats m 0 c).before 5 t d = d :=
  (dats m 0 c).before_out_reset 5 rfl t
    (by by_cases h0 : t.val = 0
        · exact .inl h0
        · exact .inr ⟨h0, flush0_5 _⟩) d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- The two feature windows are stated on the part their transfers move only (all of the block, here). -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input buffers hold their blocks, so `sound_kernel` applies; the invariant and the
    core's `owes` pass through unread; a feature buffer is handed back as it was (filling a block with its own
    moved part changes nothing). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (vis8 m c t) (txt8 m c t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]
  · iexists (vis8 m c t)
    rw [Window.fill_cut]; iexact H1
  isplitl [H2]
  · iexists (txt8 m c t)
    rw [Window.fill_cut]; iexact H2
  isplitl [H3]; · iexact H3
  isplitl [H4]; · iexact H4
  iexact H5

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data and every other unscoped buffer at what the host lines around the region leave there. -/
theorem run_main : θ_run defs (onTc (τ := τ) (main (F := F))) (s₀ m ρ)
    (Pipeline.FramePost cfgs (dats m) 0 (Pipeline.afterTail₀ cfgs (dats m) 0 (Gen.V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := Gen.V0 m) (opss := [hostOps1]) (hsub := Gen.sfx_sub) (hfresh := Gen.sfx_fresh)
    (hkeep := Gen.sfx_keeps) (hmain := Gen.hmain m Variants.none) (hA := fun _ _ => rfl) (hΦ := fun _ _ => rfl)

/-- THE FRAME: the program runs to the end, faults nowhere and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_of m ρ (dats m) (A_eq m) (run_main m ρ)

end Cert.Kernel.Body

end
-- ==== Proof.PackData.lean ====
/-
  The proof data of the one pallas_call, shared by the frame and by the value of the two results.

  The call runs over 32 grid points; point `t` handles batch rows 8t … 8t+7. Its inputs are the host's
  argsort `order` (i32[256, 80]) and mask `keep` (f32[256, 80]) in (8, 80) blocks, and the two feature arrays
  (f32[256, 100, 1, 768]) in (8, 80, 1, 768) blocks whose block index on the axis of extent 100 is always 0: the
  block is rows 0 … 79 of that axis, so it never reaches past the array's end. Hence the staging buffer of such
  a window is wholly rewritten by every fetch (`fill_indep1`, `fill_indep2`), and what the body computes from
  it depends on the array alone.

  After the body at point `t` the four input buffers hold their blocks, and the two result buffers hold the
  body's two stored values `k0_pay3`, `k0_pay4` of those blocks.
-/
import proofs.«153286_j54949811585479_2_alg».proof.Proof.Gen.KernelIdeal.Frame
import proofs.«153286_j54949811585479_2_alg».proof.Proof.Gen.KernelIdeal.Skeleton
import Idealize.ShloMosaic.Lib.Pipeline.Frame

set_option maxRecDepth 16384

noncomputable section

namespace Cert.KernelIdeal.Pack

open Cert.KernelIdeal Cert.KernelIdeal.Gen
open Idealize.ShloMosaic Idealize.ShloMosaic.TcCoe
open Idealize.SL Idealize.SL.RA Idealize.SL.BI
open scoped Idealize.SL.BI
open Idealize.SL.Sem
open Idealize.ShloMosaic.Rounds
open Idealize.ShloMosaic.Pipeline (Dat Cfg Window)

variable {F : FTy → Type} [FloatOps F]

/-! ## The feature windows' blocks lie inside their arrays -/

/-- At every grid point the transfer of the first feature window moves the whole (8, 80, 1, 768) block. -/
theorem xsize1 : ∀ (t : Fin grid0.N) (a : Fin 4), win0_1.xsize (grid0.coords t) a = S8x80x1x768.size a := by
  decide +kernel
/-- Likewise for the second feature window. -/
theorem xsize2 : ∀ (t : Fin grid0.N) (a : Fin 4), win0_2.xsize (grid0.coords t) a = S8x80x1x768.size a := by
  decide +kernel

/-- So every index of the block is one the fetch writes, -/
theorem moved1 (t : Fin grid0.N) (j : win0_1.block.Idx) : win0_1.moved (grid0.coords t) j = true :=
  (win0_1.moved_iff _ j).mpr fun a => by rw [xsize1 t a]; exact (j a).isLt
theorem moved2 (t : Fin grid0.N) (j : win0_2.block.Idx) : win0_2.moved (grid0.coords t) j = true :=
  (win0_2.moved_iff _ j).mpr fun a => by rw [xsize2 t a]; exact (j a).isLt

/-- and a buffer just fetched holds the block whatever it held before. -/
theorem fill_indep1 {α : Type} (t : Fin grid0.N) (d d' : win0_1.block.Idx → α) (g : (win0_1.xblock (grid0.coords t)).Idx → α) :
    win0_1.fill (grid0.coords t) d g = win0_1.fill (grid0.coords t) d' g := by
  funext j; unfold Window.fill; rw [dif_pos (moved1 t j), dif_pos (moved1 t j)]
theorem fill_indep2 {α : Type} (t : Fin grid0.N) (d d' : win0_2.block.Idx → α) (g : (win0_2.xblock (grid0.coords t)).Idx → α) :
    win0_2.fill (grid0.coords t) d g = win0_2.fill (grid0.coords t) d' g := by
  funext j; unfold Window.fill; rw [dif_pos (moved2 t j), dif_pos (moved2 t j)]

variable (m : (ℓ : Loc nD τ sig) → Buf (Elt F) ℓ)

/-! ## The blocks and the proof data -/

/-- The first feature array's block at point `t`, over the full block shape. -/
def vis8 (c : Dev nD) (t : Fin cfg0.N) : S8x80x1x768.Idx → Elt F .f32 :=
  win0_1.fill (grid0.coords t) (fun _ => Scalar.ofBits .f32 0#32) (iblk m c 1 t)
/-- The second feature array's block at point `t`. -/
def txt8 (c : Dev nD) (t : Fin cfg0.N) : S8x80x1x768.Idx → Elt F .f32 :=
  win0_2.fill (grid0.coords t) (fun _ => Scalar.ofBits .f32 0#32) (iblk m c 2 t)

/-- The proof data of the pipeline on core `c`: the arrays as the region finds them; after the body at point `t`
    each input buffer at its block and the two result buffers at the body's stored values of those blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => vis8 m c t
    | ⟨2, _⟩ => txt8 m c t
    | ⟨3, _⟩ => iblk m c 3 t
    | ⟨4, _⟩ => k0_pay3 (iblk m c 0 t) (vis8 m c t) (iblk m c 3 t)
    | ⟨5, _⟩ => k0_pay4 (iblk m c 0 t) (txt8 m c t) (iblk m c 3 t)
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = vis8 m c t := by dsimp only [dats]
theorem after0_2 (c : Dev nD) (t : Fin cfg0.N) : (dats m 0 c).after 2 t = txt8 m c t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = k0_pay3 (iblk m c 0 t) (vis8 m c t) (iblk m c 3 t) := by dsimp only [dats]
theorem after0_5 (c : Dev nD) (t : Fin cfg0.N) :
    (dats m 0 c).after 5 t = k0_pay4 (iblk m c 0 t) (txt8 m c t) (iblk m c 3 t) := by dsimp only [dats]

end Cert.KernelIdeal.Pack

end
-- ==== Proof.BodyIdeal.lean ====
/-
  The frame of the packing call, for the idealized program.

  The one pallas_call runs over 32 grid points. At each point its body loads four whole staging blocks — the
  order block (i32[8, 80]), the two feature blocks (f32[8, 80, 1, 768]) and the keep block (f32[8, 80]) —, forms
  from the order block a one-hot matrix, multiplies it into each feature block and scales the rows by the keep
  block, and stores the two products whole into the two result blocks (after a load of each whose value nothing
  reads). This file proves the body's triple (`sound_kernel`), states what each staging buffer holds when the body
  runs (`before0_0` … `before0_5`), derives the pipeline's body obligation (`body_obligation`), and from it the
  run of @main (`run_main`) and the frame (`frame`): the program terminates without a fault and leaves its
  argument arrays as launched.

  The two feature windows cut their blocks at the array's end in principle (80 does not divide 100), so the
  obligation states their buffers on the moved part only; as the block index on that axis is always 0, the moved
  part is the whole block, and the buffers hold their blocks outright (PackData's `fill_indep1`, `fill_indep2`).
-/
import proofs.«153286_j54949811585479_2_alg».proof.Proof.PackData
import Idealize.ShloMosaic.Lib.Pipeline.FrameSuffix
import Idealize.ShloMosaic.Lib.Pipeline.Value
import Idealize.ShloMosaic.Lib.Exec.Geometry

set_option maxRecDepth 16384

noncomputable section

namespace Cert.KernelIdeal.Body

open Cert.KernelIdeal Cert.KernelIdeal.Gen Cert.KernelIdeal.Pack

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's triple -/

set_option maxHeartbeats 2000000 in
/-- The kernel body on whole staging memrefs — the order block's at read contents `x0`, the two feature blocks' at
    `x1`, `x2`, the keep block's at `x3`, the two outputs' at anything — runs to the continuation holding the four
    inputs as they were and the outputs at `k0_pay3 x0 x1 x3` and `k0_pay4 x0 x2 x3`: every load and store is through
    the whole-shape rectangle at zero offsets, so a load reads the contents and a store leaves its payload. -/
theorem sound_kernel (c : Dev nD) (E : Set ℕ) (i : grid0.Coords)
    (arg1 : Memref sig .tc .vmem S8x80 .i32) (harg1 : arg1.IsWhole)
    (arg2 : Memref sig .tc .vmem S8x80x1x768 .f32) (harg2 : arg2.IsWhole)
    (arg3 : Memref sig .tc .vmem S8x80x1x768 .f32) (harg3 : arg3.IsWhole)
    (arg4 : Memref sig .tc .vmem S8x80 .f32) (harg4 : arg4.IsWhole)
    (arg5 : Memref sig .tc .vmem S8x80x768 .f32) (harg5 : arg5.IsWhole)
    (arg6 : Memref sig .tc .vmem S8x80x768 .f32) (harg6 : arg6.IsWhole)
    (x0 : Vec F S8x80 .i32) (x1 x2 : Vec F S8x80x1x768 .f32) (x3 : Vec F S8x80 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay3 x0 x1 x3)
            ∗ owns (c : Thread nD τ) arg6 fullShare (k0_pay4 x0 x2 x3)) -∗ K ⟨⟩))
      ⊢ wp frame (wpE (defs₀ (F := F)) Variants.none c none) E
          (cc0__pack_kernel i arg1 harg1 arg2 harg2 arg3 harg3 arg4 harg4 arg5 harg5 arg6 harg6) K := by
  have hz2 : (![0, 0] : Fin 2 → Nat) = fun _ => 0 := funext fun a => by fin_cases a <;> rfl
  have hz3 : (![0, 0, 0] : Fin 3 → Nat) = fun _ => 0 := funext fun a => by fin_cases a <;> rfl
  have hz4 : (![0, 0, 0, 0] : Fin 4 → Nat) = fun _ => 0 := funext fun a => by fin_cases a <;> rfl
  simp only [cc0__pack_kernel_eq_skeleton]; unfold cc0__pack_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  -- a load through the whole-shape rectangle reads the contents
  have r0 : View.readAt (Elt F) arg1.view (Rect.unit ![0, 0] S8x80.size inb_S8x80_S8x80_0_0).toLoadRect f0
      = View.read (Elt F) arg1.view f0 := View.ld_unit_zero hz2 _ _
  have r1 : View.readAt (Elt F) arg2.view (Rect.unit ![0, 0, 0, 0] S8x80x1x768.size inb_S8x80x1x768_S8x80x1x768_0_0_0_0).toLoadRect f1
      = View.read (Elt F) arg2.view f1 := View.ld_unit_zero hz4 _ _
  have r2 : View.readAt (Elt F) arg3.view (Rect.unit ![0, 0, 0, 0] S8x80x1x768.size inb_S8x80x1x768_S8x80x1x768_0_0_0_0).toLoadRect f2
      = View.read (Elt F) arg3.view f2 := View.ld_unit_zero hz4 _ _
  have r3 : View.readAt (Elt F) arg4.view (Rect.unit ![0, 0] S8x80.size inb_S8x80_S8x80_0_0).toLoadRect f3
      = View.read (Elt F) arg4.view f3 := View.ld_unit_zero hz2 _ _
  rw [r0, r1, r2, r3]
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    -- the one store through the whole-shape rectangle covers the buffer and leaves its payload
    rw [View.read_writes_eq_canon _ _ _ (fun y => ⟨_, List.mem_singleton_self _, View.mem_set_unit_zero hz3 inb_S8x80x768_S8x80x768_0_0_0 y⟩),
      View.canon_unit_zero hz3]
  iexists _; isplitr
  swap; · iexact H5
  ipureintro
  rw [View.read_writes_eq_canon _ _ _ (fun y => ⟨_, List.mem_singleton_self _, View.mem_set_unit_zero hz3 inb_S8x80x768_S8x80x768_0_0_0 y⟩),
    View.canon_unit_zero hz3]

variable (m : (ℓ : Loc nD τ sig) → Buf (Elt F) ℓ) (ρ : Dev nD → PrngReg)

/-! ## What the body finds in each staging buffer -/

/-- The order block's buffer holds its block at every point. -/
theorem before0_0 (c : Dev nD) (t : Fin cfg0.N) (d) : (dats m 0 c).before 0 t d = iblk m c 0 t :=
  before0_0_of m (dats m 0 c) (A_eq m c 0) (after0_0 m c) t d
/-- The keep block's likewise. -/
theorem before0_3 (c : Dev nD) (t : Fin cfg0.N) (d) : (dats m 0 c).before 3 t d = iblk m c 3 t :=
  before0_3_of m (dats m 0 c) (A_eq m c 3) (after0_3 m c) t d

/-- A feature window is fetched at every point, and the fetch rewrites the whole buffer: it holds the block,
    whatever it held before. -/
theorem before0_1 (c : Dev nD) (t : Fin cfg0.N) (d) : (dats m 0 c).before 1 t d = vis8 m c t := by
  unfold Dat.before; rw [if_pos (fetch0_1 t)]
  exact fill_indep1 t d _ (iblk m c 1 t)
theorem before0_2 (c : Dev nD) (t : Fin cfg0.N) (d) : (dats m 0 c).before 2 t d = txt8 m c t := by
  unfold Dat.before; rw [if_pos (fetch0_2 t)]
  exact fill_indep2 t d _ (iblk m c 2 t)

/-- A result window is written back at every point, so its buffer arrives at contents nothing names. -/
theorem before0_4 (c : Dev nD) (t : Fin cfg0.N) (d) : (dats m 0 c).before 4 t d = d :=
  (dats m 0 c).before_out_reset 4 rfl t
    (by by_cases h0 : t.val = 0
        · exact .inl h0
        · exact .inr ⟨h0, flush0_4 _⟩) d
theorem before0_5 (c : Dev nD) (t : Fin cfg0.N) (d) : (dats m 0 c).before 5 t d = d :=
  (dats m 0 c).before_out_reset 5 rfl t
    (by by_cases h0 : t.val = 0
        · exact .inl h0
        · exact .inr ⟨h0, flush0_5 _⟩) d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- The two feature windows are stated on the part their transfers move only (all of the block, here). -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input buffers hold their blocks, so `sound_kernel` applies; the invariant and the
    core's `owes` pass through unread; a feature buffer is handed back as it was (filling a block with its own
    moved part changes nothing). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (vis8 m c t) (txt8 m c t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]
  · iexists (vis8 m c t)
    rw [Window.fill_cut]; iexact H1
  isplitl [H2]
  · iexists (txt8 m c t)
    rw [Window.fill_cut]; iexact H2
  isplitl [H3]; · iexact H3
  isplitl [H4]; · iexact H4
  iexact H5

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data and every other unscoped buffer at what the host lines around the region leave there. -/
theorem run_main : θ_run defs (onTc (τ := τ) (main (F := F))) (s₀ m ρ)
    (Pipeline.FramePost cfgs (dats m) 0 (Pipeline.afterTail₀ cfgs (dats m) 0 (Gen.V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := Gen.V0 m) (opss := [hostOps1]) (hsub := Gen.sfx_sub) (hfresh := Gen.sfx_fresh)
    (hkeep := Gen.sfx_keeps) (hmain := Gen.hmain m Variants.none) (hA := fun _ _ => rfl) (hΦ := fun _ _ => rfl)

/-- THE FRAME: the program runs to the end, faults nowhere and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_of m ρ (dats m) (A_eq m) (run_main m ρ)

end Cert.KernelIdeal.Body

end
-- ==== Proof.LibDotRead.lean ====
/-
  A contraction over one axis, read at an index, on the extended reals.

  A product of two arrays that contracts ONE axis of each, whatever batch and free axes surround it, is at every result
  index the sum, over the shared axis's coordinate k, of the left operand at an index L k times the right operand at an
  index R k.  The dimension numbers determine L and R: a batch axis or a free axis of an operand reads one coordinate of
  the result index (its position among the result's axes is: the batch axes first, then the left operand's free axes, then
  the right operand's), and the contracted axis reads k.  The lemmas below give each such coordinate as a number, so
  that for literal dimension numbers the two indices L k and R k can be written out by coordinates; the sum itself is the
  kernel's product into a zero accumulator and the host's general product alike.
-/
import Idealize.ShloMosaic.PureOps.Ideal.Laws
import Idealize.ShloMosaic.Lib.ValueIdx

noncomputable section

namespace Cert.DotRead

open Idealize.ShloMosaic Idealize.ShloMosaic.ValueIdx

variable {sl sr so : Shape} (d : DotDims sl sr so)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

/-- A batch axis of the left operand reads the result index at the axis's place among the batch axes. -/
theorem lhs_batch_val (j : so.Idx) (k : d.contr.Idx) (a : Fin sl.rank) (hb : a ∈ d.lhsBatch)
    (q : Fin so.rank) (hq : d.lhsBatch.idxOf a = q.val) : (d.lhsIdx j k a).val = (j q).val := by
  unfold DotDims.lhsIdx
  rw [dif_pos hb]
  simp only [Fin.val_cast]
  exact val_congr j _ _ _ q.isLt hq

/-- A free axis of the left operand reads the result index after the batch axes. -/
theorem lhs_free_val (j : so.Idx) (k : d.contr.Idx) (a : Fin sl.rank) (hb : a ∉ d.lhsBatch) (hn : a ∈ d.lhsNonContracting)
    (q : Fin so.rank) (hq : d.lhsBatch.length + d.lhsNonContracting.idxOf a = q.val) : (d.lhsIdx j k a).val = (j q).val := by
  unfold DotDims.lhsIdx
  rw [dif_neg hb, dif_pos hn]
  simp only [Fin.val_cast]
  exact val_congr j _ _ _ q.isLt hq

/-- A batch axis of the right operand reads the result index at the axis's place among the batch axes. -/
theorem rhs_batch_val (j : so.Idx) (k : d.contr.Idx) (a : Fin sr.rank) (hb : a ∈ d.rhsBatch)
    (q : Fin so.rank) (hq : d.rhsBatch.idxOf a = q.val) : (d.rhsIdx j k a).val = (j q).val := by
  unfold DotDims.rhsIdx
  rw [dif_pos hb]
  simp only [Fin.val_cast]
  exact val_congr j _ _ _ q.isLt hq

/-- A free axis of the right operand reads the result index after the batch axes and the left operand's free axes. -/
theorem rhs_free_val (j : so.Idx) (k : d.contr.Idx) (a : Fin sr.rank) (hb : a ∉ d.rhsBatch) (hn : a ∈ d.rhsNonContracting)
    (q : Fin so.rank) (hq : d.lhsBatch.length + d.lhsNonContracting.length + d.rhsNonContracting.idxOf a = q.val) :
    (d.rhsIdx j k a).val = (j q).val := by
  unfold DotDims.rhsIdx
  rw [dif_neg hb, dif_pos hn]
  simp only [Fin.val_cast]
  exact val_congr j _ _ _ q.isLt hq

/-- One contracted axis: the contraction shape has one axis … -/
theorem contr_rank_one {cl : Fin sl.rank} (hc : d.lhsContracting = [cl]) : d.contr.rank = 1 := by
  rw [d.rank_contr, hc]; rfl

/-- … of the contracted axis's extent. -/
theorem contr_size_one {cl : Fin sl.rank} (hc : d.lhsContracting = [cl]) :
    d.contr.size ⟨0, by rw [contr_rank_one d hc]; exact Nat.one_pos⟩ = sl.size cl := by
  rw [d.size_contr 0 (by rw [hc]; exact Nat.one_pos)]
  simp only [hc, List.getElem_cons_zero]

section One

variable (K : Nat) (hr : d.contr.rank = 1) (hs : d.contr.size ⟨0, by omega⟩ = K)

/-- The left operand's contracted axis reads the shared coordinate. -/
theorem lhs_contr_val {cl : Fin sl.rank} (hc : d.lhsContracting = [cl]) (j : so.Idx) (k : Fin K) :
    (d.lhsIdx j ((contrEquiv1 d K hr hs).symm k) cl).val = k.val :=
  (d.lhsIdx_val_of_single hc _ _).trans (contrEquiv1_symm_val d K hr hs k)

/-- The right operand's contracted axis reads the shared coordinate. -/
theorem rhs_contr_val {cr : Fin sr.rank} (hc : d.rhsContracting = [cr]) (j : so.Idx) (k : Fin K) :
    (d.rhsIdx j ((contrEquiv1 d K hr hs).symm k) cr).val = k.val :=
  (d.rhsIdx_val_of_single hc _ _).trans (contrEquiv1_symm_val d K hr hs k)

/-- A kernel's product into a zero accumulator: the sum over the shared coordinate. -/
theorem matmul_zero_read {φ₁ φ₂ : FTy} (prec : Option ContractPrecision) (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.matmul d prec lhs rhs (constant so .f32 0x00000000#32) j = ∑ k : Fin K, lhs (L k) * rhs (R k) := by
  rw [Ideal.matmul_constant_zero_apply, ← Equiv.sum_comp (contrEquiv1 d K hr hs).symm]
  exact Finset.sum_congr rfl fun k _ => by rw [hL k, hR k]

/-- The host's general product: the same sum. -/
theorem dotGeneral_read {φ₁ φ₂ : FTy} (prec : Option ContractPrecision) (sched : HostSchedule)
    (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.dotGeneral d prec sched lhs rhs j = ∑ k : Fin K, lhs (L k) * rhs (R k) := by
  rw [Ideal.dotGeneral_apply, ← Equiv.sum_comp (contrEquiv1 d K hr hs).symm]
  exact Finset.sum_congr rfl fun k _ => by rw [hL k, hR k]

end One

end Cert.DotRead

end
-- ==== Proof.PackMath.lean ====
/-
  Two facts about the row permutation, over abstract data.

  1. An argsort — a sort of keys carrying the positions 0, 1, …, 79 along the sorted axis — returns at every index one of
     those positions: its value is the word of some `o < 80`.
  2. Selecting a row by a 0/1 matrix: if `w s` is 1 at `s = o` and 0 elsewhere, then `∑ s, w s * v s = v o` on the
     extended reals (zero times anything is zero there, so no finiteness is needed).
-/
import Idealize.ShloMosaic.PureOps.Ideal
import Idealize.ShloMosaic.PureOps.Ideal.Laws
import Idealize.ShloMosaic.Lib.ValueIdx

noncomputable section

namespace Cert.PackMath

open Idealize.ShloMosaic

/-- The carried positions, read at position `k` of the fiber through `j` along axis 1, give the word of `k`. -/
theorem iota_along (j : (⟨2, ![256, 80]⟩ : Shape).Idx) (k : Fin 80) :
    iotaInDim ⟨2, ![256, 80]⟩ 32 1 (j.along (1 : Fin 2) k) = BitVec.ofNat 32 k.val := by
  show BitVec.ofNat 32 (Function.update j (1 : Fin 2) k (1 : Fin 2)).val = BitVec.ofNat 32 k.val
  exact congrArg (fun v : Fin 80 => BitVec.ofNat 32 v.val) (Function.update_self (1 : Fin 2) k j)

/-- The sort of `keys` carrying the positions along axis 1 of a [256, 80] array returns, at every index, the word of a
    position below 80: the carried operand is read at the fiber's position the sort puts there. -/
theorem argsort_lt {α : Type} (cmp : α × BitVec 32 → α × BitVec 32 → BitVec 1)
    (keys : (⟨2, ![256, 80]⟩ : Shape).Idx → α) (j : (⟨2, ![256, 80]⟩ : Shape).Idx) :
    ∃ o : Fin 80, (Host.sort2 ⟨2, ![256, 80]⟩ 1 cmp keys (iotaInDim ⟨2, ![256, 80]⟩ 32 1)).2 j = BitVec.ofNat 32 o.val := by
  unfold Host.sort2
  rw [dif_pos (by decide : 1 < (⟨2, ![256, 80]⟩ : Shape).rank)]
  dsimp only
  exact ⟨_, iota_along j _⟩

/-- Two positions below 80 with the same 32-bit word are equal. -/
theorem ofNat_inj_80 {o s : Fin 80} (h : BitVec.ofNat 32 o.val = BitVec.ofNat 32 s.val) : o = s := by
  have := congrArg BitVec.toNat h
  simp only [BitVec.toNat_ofNat] at this
  have ho := o.isLt; have hs := s.isLt
  exact Fin.ext (by omega)

/-- A 0/1 row that is 1 exactly at `o` selects entry `o`. -/
theorem onehot_sum (o : Fin 80) (w v : Fin 80 → EReal) (hw : ∀ s, w s = if s = o then 1 else 0) :
    ∑ s : Fin 80, w s * v s = v o := by
  rw [Finset.sum_eq_single o]
  · rw [hw o, if_pos rfl, one_mul]
  · intro s _ hs; rw [hw s, if_neg hs, zero_mul]
  · intro h; exact absurd (Finset.mem_univ o) h

/-- The 0/1 weight of row `s` under the order word `o`: 1 when the word is `s`'s, else 0. -/
def oh (o : BitVec 32) (s : Fin 80) : EReal := if o = BitVec.ofNat 32 s.val then 1 else 0

/-- Under the word of a position `o` below 80 the weight is 1 exactly at `o`. -/
theorem oh_ofNat (o s : Fin 80) : oh (BitVec.ofNat 32 o.val) s = if s = o then 1 else 0 := by
  unfold oh
  by_cases h : s = o
  · subst h; rw [if_pos rfl, if_pos rfl]
  · rw [if_neg h, if_neg (fun e => h (ofNat_inj_80 e).symm)]

/-- The weighted sum over the 80 rows under the word of position `o` is row `o`. -/
theorem oh_sum (o : Fin 80) (v : Fin 80 → EReal) : ∑ s : Fin 80, oh (BitVec.ofNat 32 o.val) s * v s = v o :=
  onehot_sum o _ v (oh_ofNat o)

end Cert.PackMath

end
-- ==== Proof.PackPay.lean ====
/-
  The body's two stored values read at an index, on the extended reals.

  With `ord` the (8, 80) block of the argsort, `x` the (8, 80, 1, 768) block of a feature array and `keep` the (8, 80)
  block of the mask, the value stored into a result block is, at (p, r, d),

      ( ∑ s < 80, [ord(p, r) = s] · x(p, s, 0, d) ) · keep(p, r):

  the 0/1 matrix [ord(p, r) = s] comes from comparing the order word broadcast along a new last axis with the positions
  along that axis, converted to a float; the batched product contracts its last axis with the block's row axis.
-/
import proofs.«153286_j54949811585479_2_alg».proof.Proof.Gen.KernelIdeal.Skeleton
import proofs.«153286_j54949811585479_2_alg».proof.Proof.LibDotRead
import proofs.«153286_j54949811585479_2_alg».proof.Proof.PackMath
import Idealize.ShloMosaic.Lib.ValueIdx
import Idealize.ShloMosaic.Lib.Pipeline.Value
import Idealize.ShloMosaic.PureOps.Ideal.Laws

noncomputable section

namespace Cert.KernelIdeal.PackPay

open Cert.KernelIdeal Cert.KernelIdeal.Gen
open Idealize.ShloMosaic Idealize.ShloMosaic.ValueIdx Cert.PackMath

/-- The order word broadcast along a new last axis. -/
theorem ord_bcast_apply (x0 : Vec Ideal S8x80 .i32) (p : Fin 8) (r s : Fin 80) :
    broadcastTo S8x80x80 (shapeCast S8x80x1 (shapeCast S8x80 x0 shapeCasts_S8x80_S8x80) shapeCasts_S8x80_S8x80x1)
      broadcasts_S8x80x1_S8x80x80 (ix3 p r s) = x0 (ix2 p r) := by
  rw [broadcastTo_apply _ _ (ix3 p r s) (ix3 p r (0 : Fin 1)) (fun a => by
    match a with
    | ⟨0, _⟩ => rfl
    | ⟨1, _⟩ => rfl
    | ⟨2, _⟩ => rfl)]
  rw [shapeCast_apply _ _ (ix3 p r (0 : Fin 1)) (ix2 p r) (by
    rw [Shape.rowMajor_val_two, Shape.rowMajor_val_three]; show p.val * 80 + r.val = (p.val * 80 + r.val) * 1 + 0; omega),
    shapeCast_self]

/-- The 0/1 matrix the body builds, at (p, r, s). -/
theorem pay1_apply (x0 : Vec Ideal S8x80 .i32) (p : Fin 8) (r s : Fin 80) :
    k0_pay1 (F := Ideal) x0 (ix3 p r s) = oh (x0 (ix2 p r)) s := by
  unfold k0_pay1
  dsimp only
  rw [sitofp_apply, extui_apply]
  show FloatOps.sitofp (F := Ideal) .f32 ((IntOp.cmpi .eq (broadcastTo S8x80x80 (shapeCast S8x80x1 (shapeCast S8x80 x0 shapeCasts_S8x80_S8x80) shapeCasts_S8x80_S8x80x1)
      broadcasts_S8x80x1_S8x80x80 (ix3 p r s)) (iota .tc S8x80x80 32 [2] iota_S8x80x80_d2_w32 (ix3 p r s))).setWidth 32) = _
  rw [ord_bcast_apply]
  have hi : iota .tc S8x80x80 32 [2] iota_S8x80x80_d2_w32 (ix3 p r s) = BitVec.ofNat 32 s.val := by
    show BitVec.ofNat 32 (0 * 80 + s.val) = _
    rw [Nat.zero_mul, Nat.zero_add]
  rw [hi]
  unfold oh
  by_cases h : x0 (ix2 p r) = BitVec.ofNat 32 s.val
  · rw [if_pos h, h]
    have hb : (BitVec.ofNat 32 s.val == BitVec.ofNat 32 s.val) = true := beq_self_eq_true _
    simp only [IntOp.cmpi, hb]
    show (((BitVec.setWidth 32 (BitVec.ofBool true)).toInt : ℝ) : EReal) = 1
    rw [show (BitVec.setWidth 32 (BitVec.ofBool true)).toInt = 1 from by decide]
    simp
  · rw [if_neg h]
    have hb : (x0 (ix2 p r) == BitVec.ofNat 32 s.val) = false := beq_eq_false_iff_ne.mpr h
    simp only [IntOp.cmpi, hb]
    show (((BitVec.setWidth 32 (BitVec.ofBool false)).toInt : ℝ) : EReal) = 0
    rw [show (BitVec.setWidth 32 (BitVec.ofBool false)).toInt = 0 from by decide]
    simp

/-- The mask block as a column, broadcast along the feature axis. -/
theorem keep_bcast_apply (x3 : Vec Ideal S8x80 .f32) (p : Fin 8) (r : Fin 80) (d : Fin 768) :
    broadcastTo S8x80x768 (k0_pay2 (F := Ideal) x3) broadcasts_S8x80x1_S8x80x768 (ix3 p r d) = x3 (ix2 p r) := by
  unfold k0_pay2
  dsimp only
  rw [broadcastTo_apply _ _ (ix3 p r d) (ix3 p r (0 : Fin 1)) (fun a => by
    match a with
    | ⟨0, _⟩ => rfl
    | ⟨1, _⟩ => rfl
    | ⟨2, _⟩ => rfl)]
  rw [shapeCast_apply _ _ (ix3 p r (0 : Fin 1)) (ix2 p r) (by
    rw [Shape.rowMajor_val_two, Shape.rowMajor_val_three]; show p.val * 80 + r.val = (p.val * 80 + r.val) * 1 + 0; omega),
    shapeCast_self]

/-- The feature block with its unit axis dropped. -/
theorem feat_cast_apply (x : Vec Ideal S8x80x1x768 .f32) (p : Fin 8) (s : Fin 80) (d : Fin 768) :
    shapeCast S8x80x768 x shapeCasts_S8x80x1x768_S8x80x768 (ix3 p s d) = x (ix4 p s (0 : Fin 1) d) :=
  shapeCast_apply _ _ (ix3 p s d) (ix4 p s (0 : Fin 1) d) (by
    rw [Shape.rowMajor_val_three, Shape.rowMajor_val_four]
    show ((p.val * 80 + s.val) * 1 + 0) * 768 + d.val = (p.val * 80 + s.val) * 768 + d.val; omega)

local notation "𝔇" => dot_S8x80x80_S8x80x768_S8x80x768_2_1_1_2_0_0

theorem dot_rank : (𝔇).contr.rank = 1 := Cert.DotRead.contr_rank_one 𝔇 (cl := (2 : Fin 3)) rfl
theorem dot_size : (𝔇).contr.size ⟨0, by rw [dot_rank]; exact Nat.one_pos⟩ = 80 :=
  (Cert.DotRead.contr_size_one 𝔇 (cl := (2 : Fin 3)) rfl).trans rfl

/-- The batched product of the 0/1 matrix with a block, into zero, at (p, r, d): the sum over the block's rows. -/
theorem prod_apply (w : FVec Ideal S8x80x80 .f32) (y : FVec Ideal S8x80x768 .f32) (p : Fin 8) (r : Fin 80) (d : Fin 768) :
    matmul 𝔇 (some .fp32) w y (constant S8x80x768 .f32 0x00000000#32) (ix3 p r d)
      = ∑ s : Fin 80, w (ix3 p r s) * y (ix3 p s d) := by
  refine Cert.DotRead.matmul_zero_read 𝔇 80 dot_rank dot_size (some .fp32) w y (ix3 p r d)
    (fun s => ix3 p r s) (fun s => ix3 p s d) (fun s => ?_) (fun s => ?_)
  · funext a; apply Fin.ext
    match a with
    | ⟨0, _⟩ => exact Cert.DotRead.lhs_batch_val 𝔇 _ _ (0 : Fin 3) (by decide) (0 : Fin 3) (by decide)
    | ⟨1, _⟩ => exact Cert.DotRead.lhs_free_val 𝔇 _ _ (1 : Fin 3) (by decide) (by decide) (1 : Fin 3) (by decide)
    | ⟨2, _⟩ => exact Cert.DotRead.lhs_contr_val 𝔇 80 dot_rank dot_size (cl := (2 : Fin 3)) rfl _ s
  · funext a; apply Fin.ext
    match a with
    | ⟨0, _⟩ => exact Cert.DotRead.rhs_batch_val 𝔇 _ _ (0 : Fin 3) (by decide) (0 : Fin 3) (by decide)
    | ⟨1, _⟩ => exact Cert.DotRead.rhs_contr_val 𝔇 80 dot_rank dot_size (cr := (1 : Fin 3)) rfl _ s
    | ⟨2, _⟩ => exact Cert.DotRead.rhs_free_val 𝔇 _ _ (2 : Fin 3) (by decide) (by decide) (2 : Fin 3) (by decide)

/-- The value stored into the first result block, at (p, r, d). -/
theorem pay3_apply (x0 : Vec Ideal S8x80 .i32) (x1 : Vec Ideal S8x80x1x768 .f32) (x3 : Vec Ideal S8x80 .f32)
    (p : Fin 8) (r : Fin 80) (d : Fin 768) :
    k0_pay3 (F := Ideal) x0 x1 x3 (ix3 p r d)
      = (∑ s : Fin 80, oh (x0 (ix2 p r)) s * x1 (ix4 p s (0 : Fin 1) d)) * x3 (ix2 p r) := by
  unfold k0_pay3
  rw [mulf_apply, keep_bcast_apply, prod_apply]
  congr 1
  exact Finset.sum_congr rfl fun s _ => by rw [pay1_apply, feat_cast_apply]

/-- The value stored into the second result block, at (p, r, d). -/
theorem pay4_apply (x0 : Vec Ideal S8x80 .i32) (x2 : Vec Ideal S8x80x1x768 .f32) (x3 : Vec Ideal S8x80 .f32)
    (p : Fin 8) (r : Fin 80) (d : Fin 768) :
    k0_pay4 (F := Ideal) x0 x2 x3 (ix3 p r d)
      = (∑ s : Fin 80, oh (x0 (ix2 p r)) s * x2 (ix4 p s (0 : Fin 1) d)) * x3 (ix2 p r) := by
  unfold k0_pay4
  rw [mulf_apply, keep_bcast_apply, prod_apply]
  congr 1
  exact Finset.sum_congr rfl fun s _ => by rw [pay1_apply, feat_cast_apply]

end Cert.KernelIdeal.PackPay

end
-- ==== Proof.PackValue.lean ====
/-
  From the blocks to the arrays: what the two result arrays hold after the run, on the extended reals.

  Point `t` of the grid reads rows 8t … 8t+7 of the argsort `ord`, of the mask `keep` and of a feature array `x`, and
  writes rows 8t … 8t+7 of a result. The 32 blocks tile the result, and the value written at (8t + p, r, d) depends on
  the inputs at batch row 8t + p only; so the result is ONE function of the three arrays:

      G(b, r, d) = ( ∑ s < 80, [ord(b, r) = s] · x(b, s, 0, d) ) · keep(b, r).
-/
import proofs.«153286_j54949811585479_2_alg».proof.Proof.PackData
import proofs.«153286_j54949811585479_2_alg».proof.Proof.PackPay
import Idealize.ShloMosaic.Lib.Pipeline.Value

set_option maxRecDepth 16384

noncomputable section

namespace Cert.KernelIdeal.PackValue

open Cert.KernelIdeal Cert.KernelIdeal.Gen Cert.KernelIdeal.Pack Cert.KernelIdeal.PackPay
open Idealize.ShloMosaic Idealize.ShloMosaic.TcCoe Idealize.SL.Sem Idealize.ShloMosaic.ValueIdx Cert.PackMath
open Idealize.ShloMosaic.Pipeline (Dat)

/-- The packed array: row `r` of batch `b` is the feature row the order word selects, times the mask. -/
def Gpack (ord : S256x80.Idx → BitVec 32) (x : S256x100x1x768.Idx → EReal) (keep : S256x80.Idx → EReal) :
    S256x80x768.Idx → EReal :=
  fun i => (∑ s : Fin 80, oh (ord (ix2 (i 0) (i 1))) s
      * x (ix4 (i 0) (⟨s.val, by have := s.isLt; omega⟩ : Fin 100) (0 : Fin 1) (i 2))) * keep (ix2 (i 0) (i 1))

/-- The packed array at an index given by its coordinates. -/
theorem Gpack_eq (ord : S256x80.Idx → BitVec 32) (x : S256x100x1x768.Idx → EReal) (keep : S256x80.Idx → EReal)
    (i : S256x80x768.Idx) (b : Fin 256) (r : Fin 80) (d : Fin 768)
    (h0 : (i 0).val = b.val) (h1 : (i 1).val = r.val) (h2 : (i 2).val = d.val) :
    Gpack ord x keep i = (∑ s : Fin 80, oh (ord (ix2 b r)) s
      * x (ix4 b (⟨s.val, by have := s.isLt; omega⟩ : Fin 100) (0 : Fin 1) d)) * keep (ix2 b r) := by
  obtain rfl : i 0 = b := Fin.ext h0
  obtain rfl : i 1 = r := Fin.ext h1
  obtain rfl : i 2 = d := Fin.ext h2
  rfl

/-- One grid point: a block function `f` that reads the three input blocks as the body's stored value does, where the
    blocks are rows 8T … 8T+7 of the arrays, is the packed array read at batch row 8T + (the block's row). -/
theorem pack_point (ordA : S256x80.Idx → BitVec 32) (xA : S256x100x1x768.Idx → EReal) (keepA : S256x80.Idx → EReal)
    (x0 : S8x80.Idx → BitVec 32) (x1 : S8x80x1x768.Idx → EReal) (x3 : S8x80.Idx → EReal) (f : S8x80x768.Idx → EReal)
    (hf : ∀ (p : Fin 8) (r : Fin 80) (d : Fin 768),
      f (ix3 p r d) = (∑ s : Fin 80, oh (x0 (ix2 p r)) s * x1 (ix4 p s (0 : Fin 1) d)) * x3 (ix2 p r))
    (T : Nat) (hT : T < 32)
    (h0 : ∀ (p : Fin 8) (r : Fin 80), x0 (ix2 p r) = ordA (ix2 (⟨8 * T + p.val, by have := p.isLt; omega⟩ : Fin 256) r))
    (h1 : ∀ (p : Fin 8) (s : Fin 80) (d : Fin 768), x1 (ix4 p s (0 : Fin 1) d)
      = xA (ix4 (⟨8 * T + p.val, by have := p.isLt; omega⟩ : Fin 256) (⟨s.val, by have := s.isLt; omega⟩ : Fin 100) (0 : Fin 1) d))
    (h3 : ∀ (p : Fin 8) (r : Fin 80), x3 (ix2 p r) = keepA (ix2 (⟨8 * T + p.val, by have := p.isLt; omega⟩ : Fin 256) r))
    (j : S8x80x768.Idx) (i : S256x80x768.Idx)
    (hi0 : (i 0).val = 8 * T + (j 0).val) (hi1 : (i 1).val = (j 1).val) (hi2 : (i 2).val = (j 2).val) :
    f j = Gpack ordA xA keepA i := by
  obtain ⟨p, r, d, rfl⟩ : ∃ (p : Fin 8) (r : Fin 80) (d : Fin 768), j = ix3 p r d := ⟨j 0, j 1, j 2, eq_ix3 j⟩
  rw [hf, Gpack_eq ordA xA keepA i (⟨8 * T + p.val, by have := p.isLt; omega⟩ : Fin 256) r d hi0 hi1 hi2, h0, h3]
  congr 1
  exact Finset.sum_congr rfl fun s _ => by rw [h1]

/-! ## Where each window's block sits -/

theorem idx0 : ∀ t : Fin grid0.N, win0_0.index t 0 = t.val ∧ win0_0.index t 1 = 0 := by decide +kernel
theorem idx1 : ∀ t : Fin grid0.N, win0_1.index t 0 = t.val ∧ win0_1.index t 1 = 0 ∧ win0_1.index t 2 = 0 ∧ win0_1.index t 3 = 0 := by
  decide +kernel
theorem idx2 : ∀ t : Fin grid0.N, win0_2.index t 0 = t.val ∧ win0_2.index t 1 = 0 ∧ win0_2.index t 2 = 0 ∧ win0_2.index t 3 = 0 := by
  decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 ∧ win0_4.index t 2 = 0 := by decide +kernel
theorem idx5 : ∀ t : Fin grid0.N, win0_5.index t 0 = t.val ∧ win0_5.index t 1 = 0 ∧ win0_5.index t 2 = 0 := by decide +kernel

variable (m : (ℓ : Loc nD τ sig) → Buf (Elt Ideal) ℓ)

/-! ## The input blocks read off their arrays -/

/-- The argsort's block at point `t`, at (p, r), is the array at (8t + p, r). -/
theorem ord_blk_apply (c : Dev nD) (t : Fin cfg0.N) (p : Fin 8) (r : Fin 80) (k : S256x80.Idx)
    (hk0 : (k 0).val = 8 * t.val + p.val) (hk1 : (k 1).val = r.val) :
    (iblk m c 0 t : Vec Ideal S8x80 .i32) (ix2 p r) = (V m c main_v19 : S256x80.Idx → BitVec 32) k := by
  unfold iblk
  rw [View.read_apply]
  show (V m c main_v19 : S256x80.Idx → BitVec 32) _ = V m c main_v19 k
  congr 1
  funext a; apply Fin.ext
  match a with
  | ⟨0, _⟩ => show win0_0.index t 0 * 8 + 1 * p.val = (k 0).val; rw [(idx0 t).1, hk0]; omega
  | ⟨1, _⟩ => show win0_0.index t 1 * 80 + 1 * r.val = (k 1).val; rw [(idx0 t).2, hk1]; omega

/-- The mask's block at point `t`, at (p, r), is the array at (8t + p, r). -/
theorem keep_blk_apply (c : Dev nD) (t : Fin cfg0.N) (p : Fin 8) (r : Fin 80) (k : S256x80.Idx)
    (hk0 : (k 0).val = 8 * t.val + p.val) (hk1 : (k 1).val = r.val) :
    (iblk m c 3 t : Vec Ideal S8x80 .f32) (ix2 p r) = (V m c main_v26 : S256x80.Idx → EReal) k := by
  unfold iblk
  rw [View.read_apply]
  show (V m c main_v26 : S256x80.Idx → EReal) _ = V m c main_v26 k
  congr 1
  funext a; apply Fin.ext
  match a with
  | ⟨0, _⟩ => show win0_3.index t 0 * 8 + 1 * p.val = (k 0).val; rw [(idx3 t).1, hk0]; omega
  | ⟨1, _⟩ => show win0_3.index t 1 * 80 + 1 * r.val = (k 1).val; rw [(idx3 t).2, hk1]; omega

/-- The first feature array's block at point `t`, at (p, s, 0, d), is the array at (8t + p, s, 0, d). -/
theorem vis8_blk_apply (c : Dev nD) (t : Fin cfg0.N) (p : Fin 8) (s : Fin 80) (d : Fin 768) (k : S256x100x1x768.Idx)
    (hk0 : (k 0).val = 8 * t.val + p.val) (hk1 : (k 1).val = s.val) (hk3 : (k 3).val = d.val) :
    vis8 m c t (ix4 p s (0 : Fin 1) d) = (V m c main_arg2 : S256x100x1x768.Idx → EReal) k := by
  unfold vis8 Pipeline.Window.fill
  rw [dif_pos (moved1 t _)]
  unfold iblk
  rw [View.read_apply]
  show (V m c main_arg2 : S256x100x1x768.Idx → EReal) _ = V m c main_arg2 k
  congr 1
  funext a; apply Fin.ext
  have h2 : (k 2).val = 0 := by have h : (k 2).val < 1 := (k 2).isLt; omega
  match a with
  | ⟨0, _⟩ => show win0_1.index t 0 * 8 + 1 * p.val = (k 0).val; rw [(idx1 t).1, hk0]; omega
  | ⟨1, _⟩ => show win0_1.index t 1 * 80 + 1 * s.val = (k 1).val; rw [(idx1 t).2.1, hk1]; omega
  | ⟨2, _⟩ => show win0_1.index t 2 * 1 + 1 * 0 = (k 2).val; rw [(idx1 t).2.2.1, h2]
  | ⟨3, _⟩ => show win0_1.index t 3 * 768 + 1 * d.val = (k 3).val; rw [(idx1 t).2.2.2, hk3]; omega

/-- What point `t` writes back to result 0 is the block at `t` of the packed array. -/
theorem flushed_eq4 (c : Dev nD) (t : Fin cfg0.N) :
    (dats m 0 c).flushed 4 t
      = ((cfg0.win 4).blk t).view.read (Elt Ideal) (Gpack (V m c main_v19) (V m c main_arg2) (V m c main_v26)) := by
  show (cfg0.win 4).cut (grid0.coords t) ((dats m 0 c).after 4 t) = _
  rw [after0_4]
  funext y
  have ht : t.val < 32 := Nat.lt_of_lt_of_eq t.isLt N_0
  rw [View.read_apply]
  exact pack_point (V m c main_v19) (V m c main_arg2) (V m c main_v26) (iblk m c 0 t) (vis8 m c t) (iblk m c 3 t) _
    (fun p r d => pay3_apply (iblk m c 0 t) (vis8 m c t) (iblk m c 3 t) p r d) t.val ht
    (fun p r => ord_blk_apply m c t p r _ rfl rfl)
    (fun p s d => vis8_blk_apply m c t p s d _ rfl rfl rfl)
    (fun p r => keep_blk_apply m c t p r _ rfl rfl)
    (win0_4.xinj (grid0.coords t) y) _
    (by show win0_4.index t 0 * 8 + 1 * (y 0).val = 8 * t.val + (y 0).val; rw [(idx4 t).1]; omega)
    (by show win0_4.index t 1 * 80 + 1 * (y 1).val = (y 1).val; rw [(idx4 t).2.1]; omega)
    (by show win0_4.index t 2 * 768 + 1 * (y 2).val = (y 2).val; rw [(idx4 t).2.2]; omega)

/-- Every index of result 0 lies in the block of the point that handles its batch row. -/
theorem cover4 (i : S256x80x768.Idx) :
    ∃ t : Fin cfg0.N, (cfg0.win 4).flush t = true ∧ i ∈ ((cfg0.win 4).blk t).view.set := by
  have h0 : (i 0).val < 256 := (i 0).isLt
  have h1 : (i 1).val < 80 := (i 1).isLt
  have h2 : (i 2).val < 768 := (i 2).isLt
  have hN : (i 0).val / 8 < cfg0.N := by rw [show cfg0.N = 32 from N_0]; omega
  refine ⟨⟨(i 0).val / 8, hN⟩, flush0_4 _, ?_⟩
  have hi := idx4 ⟨(i 0).val / 8, hN⟩
  show i ∈ ((View.whole main_v27_0).slice (win0_4.rect ⟨(i 0).val / 8, hN⟩)).set
  rw [View.set_slice_whole, Rect.mem_set_unit]
  intro a
  match a with
  | ⟨0, _⟩ =>
    show win0_4.index ⟨(i 0).val / 8, hN⟩ 0 * 8 ≤ (i 0).val ∧ (i 0).val < win0_4.index ⟨(i 0).val / 8, hN⟩ 0 * 8 + 8
    rw [hi.1]; show (i 0).val / 8 * 8 ≤ (i 0).val ∧ (i 0).val < (i 0).val / 8 * 8 + 8; omega
  | ⟨1, _⟩ =>
    show win0_4.index ⟨(i 0).val / 8, hN⟩ 1 * 80 ≤ (i 1).val ∧ (i 1).val < win0_4.index ⟨(i 0).val / 8, hN⟩ 1 * 80 + 80
    rw [hi.2.1]; omega
  | ⟨2, _⟩ =>
    show win0_4.index ⟨(i 0).val / 8, hN⟩ 2 * 768 ≤ (i 2).val ∧ (i 2).val < win0_4.index ⟨(i 0).val / 8, hN⟩ 2 * 768 + 768
    rw [hi.2.2]; omega

/-- Result 0 after the run is the packed array. -/
theorem final4 (c : Dev nD) :
    (dats m 0 c).arrAt 4 cfg0.N = Gpack (V m c main_v19) (V m c main_arg2) (V m c main_v26) :=
  (dats m 0 c).arrAt_eq_of_cover 4 _ (fun t _ => flushed_eq4 m c t) cover4

/-- The second feature array's block at point `t`, at (p, s, 0, d), is the array at (8t + p, s, 0, d). -/
theorem txt8_blk_apply (c : Dev nD) (t : Fin cfg0.N) (p : Fin 8) (s : Fin 80) (d : Fin 768) (k : S256x100x1x768.Idx)
    (hk0 : (k 0).val = 8 * t.val + p.val) (hk1 : (k 1).val = s.val) (hk3 : (k 3).val = d.val) :
    txt8 m c t (ix4 p s (0 : Fin 1) d) = (V m c main_arg3 : S256x100x1x768.Idx → EReal) k := by
  unfold txt8 Pipeline.Window.fill
  rw [dif_pos (moved2 t _)]
  unfold iblk
  rw [View.read_apply]
  show (V m c main_arg3 : S256x100x1x768.Idx → EReal) _ = V m c main_arg3 k
  congr 1
  funext a; apply Fin.ext
  have h2 : (k 2).val = 0 := by have h : (k 2).val < 1 := (k 2).isLt; omega
  match a with
  | ⟨0, _⟩ => show win0_2.index t 0 * 8 + 1 * p.val = (k 0).val; rw [(idx2 t).1, hk0]; omega
  | ⟨1, _⟩ => show win0_2.index t 1 * 80 + 1 * s.val = (k 1).val; rw [(idx2 t).2.1, hk1]; omega
  | ⟨2, _⟩ => show win0_2.index t 2 * 1 + 1 * 0 = (k 2).val; rw [(idx2 t).2.2.1, h2]
  | ⟨3, _⟩ => show win0_2.index t 3 * 768 + 1 * d.val = (k 3).val; rw [(idx2 t).2.2.2, hk3]; omega

/-- What point `t` writes back to result 1 is the block at `t` of the packed array. -/
theorem flushed_eq5 (c : Dev nD) (t : Fin cfg0.N) :
    (dats m 0 c).flushed 5 t
      = ((cfg0.win 5).blk t).view.read (Elt Ideal) (Gpack (V m c main_v19) (V m c main_arg3) (V m c main_v26)) := by
  show (cfg0.win 5).cut (grid0.coords t) ((dats m 0 c).after 5 t) = _
  rw [after0_5]
  funext y
  have ht : t.val < 32 := Nat.lt_of_lt_of_eq t.isLt N_0
  rw [View.read_apply]
  exact pack_point (V m c main_v19) (V m c main_arg3) (V m c main_v26) (iblk m c 0 t) (txt8 m c t) (iblk m c 3 t) _
    (fun p r d => pay4_apply (iblk m c 0 t) (txt8 m c t) (iblk m c 3 t) p r d) t.val ht
    (fun p r => ord_blk_apply m c t p r _ rfl rfl)
    (fun p s d => txt8_blk_apply m c t p s d _ rfl rfl rfl)
    (fun p r => keep_blk_apply m c t p r _ rfl rfl)
    (win0_5.xinj (grid0.coords t) y) _
    (by show win0_5.index t 0 * 8 + 1 * (y 0).val = 8 * t.val + (y 0).val; rw [(idx5 t).1]; omega)
    (by show win0_5.index t 1 * 80 + 1 * (y 1).val = (y 1).val; rw [(idx5 t).2.1]; omega)
    (by show win0_5.index t 2 * 768 + 1 * (y 2).val = (y 2).val; rw [(idx5 t).2.2]; omega)

/-- Every index of result 1 lies in the block of the point that handles its batch row. -/
theorem cover5 (i : S256x80x768.Idx) :
    ∃ t : Fin cfg0.N, (cfg0.win 5).flush t = true ∧ i ∈ ((cfg0.win 5).blk t).view.set := by
  have h0 : (i 0).val < 256 := (i 0).isLt
  have h1 : (i 1).val < 80 := (i 1).isLt
  have h2 : (i 2).val < 768 := (i 2).isLt
  have hN : (i 0).val / 8 < cfg0.N := by rw [show cfg0.N = 32 from N_0]; omega
  refine ⟨⟨(i 0).val / 8, hN⟩, flush0_5 _, ?_⟩
  have hi := idx5 ⟨(i 0).val / 8, hN⟩
  show i ∈ ((View.whole main_v27_1).slice (win0_5.rect ⟨(i 0).val / 8, hN⟩)).set
  rw [View.set_slice_whole, Rect.mem_set_unit]
  intro a
  match a with
  | ⟨0, _⟩ =>
    show win0_5.index ⟨(i 0).val / 8, hN⟩ 0 * 8 ≤ (i 0).val ∧ (i 0).val < win0_5.index ⟨(i 0).val / 8, hN⟩ 0 * 8 + 8
    rw [hi.1]; show (i 0).val / 8 * 8 ≤ (i 0).val ∧ (i 0).val < (i 0).val / 8 * 8 + 8; omega
  | ⟨1, _⟩ =>
    show win0_5.index ⟨(i 0).val / 8, hN⟩ 1 * 80 ≤ (i 1).val ∧ (i 1).val < win0_5.index ⟨(i 0).val / 8, hN⟩ 1 * 80 + 80
    rw [hi.2.1]; omega
  | ⟨2, _⟩ =>
    show win0_5.index ⟨(i 0).val / 8, hN⟩ 2 * 768 ≤ (i 2).val ∧ (i 2).val < win0_5.index ⟨(i 0).val / 8, hN⟩ 2 * 768 + 768
    rw [hi.2.2]; omega

/-- Result 1 after the run is the packed array. -/
theorem final5 (c : Dev nD) :
    (dats m 0 c).arrAt 5 cfg0.N = Gpack (V m c main_v19) (V m c main_arg3) (V m c main_v26) :=
  (dats m 0 c).arrAt_eq_of_cover 5 _ (fun t _ => flushed_eq5 m c t) cover5

end Cert.KernelIdeal.PackValue

end
-- ==== Proof.PackHost.lean ====
/-
  The values the host lines of @main compute around the packing call, at exact arithmetic.

  Before the region the host derives from the scores `x5` (f32[256, 100]; only the first 80 columns are read) the
  order array (per row, the stable argsort of the keys `1 - [x5 > 1/2]`), the per-row counts of entries exceeding
  1/2, the keep mask (column below the row's count), and the modified scores; from `x4` the labels. After the
  region it derives the text mask and the image mask from the counts. Each value is written here as the
  composition of the printed operations applied to the launch contents, and shown to be what the region finds
  (`V_order`, `V_keep`, `V0_cnt`, `V0_rrMod`, `V0_labels`) or what @main ends with (`tail_v34`, `tail_v42`,
  `tail_v15`, `tail_v1`). The sort is never opened: it appears on both sides of each equation as the same term.
-/
import proofs.«153286_j54949811585479_2_alg».proof.Proof.PackData
import Idealize.ShloMosaic.Lib.StableHlo.Run
import Idealize.ShloMosaic.Lib.Pipeline.FrameSuffix
import Idealize.ShloMosaic.PureOps.Ideal
import Idealize.ShloMosaic.PureOps.IdealRules

set_option maxRecDepth 16384

noncomputable section

namespace Cert.KernelIdeal.PackHost

open Cert.KernelIdeal Cert.KernelIdeal.Gen Cert.KernelIdeal.Pack
open Idealize.ShloMosaic Idealize.ShloMosaic.TcCoe Idealize.ShloMosaic.StableHlo
open Idealize.SL Idealize.SL.Sem

variable (m : (ℓ : Loc nD τ sig) → Buf (Elt Ideal) ℓ)

/-! ## The values the host computes before the region -/

/-- The order array (the region's window 0): per row, the stable argsort along the 80 columns of the keys
    `1 - [x5 > 1/2]` over the first 80 columns of `x5` — the columns whose entry exceeds 1/2 first, in order. -/
def ordK (x5 : (⟨S256x100, .f32⟩ : BufTy).Contents (Elt Ideal)) : S256x80.Idx → BitVec 32 :=
  (Host.sort2 S256x80 1 comparator_i32_i32_d1
    (subi (broadcastInDim S256x80 ![] bcast_S_S256x80 (constantI S_ 32 1#32))
      (extui 32
        (cmpf CmpFPredicate.ogt
          (extractStridedSlice S256x80 ![0, 0] x5 slices_S256x100_S256x80_0_0)
          (broadcastInDim S256x80 ![] bcast_S_S256x80 (constant (F := Ideal) S_ FTy.f32 0x3F000000#32)))
        natLt_1_32))
    (iotaInDim S256x80 32 1)).2

/-- The keep mask (the region's window 3): column `j` of row `r` is 1 if `j` is below the row's count of entries
    exceeding 1/2 among the first 80 columns of `x5`, else 0. -/
def keepK (x5 : (⟨S256x100, .f32⟩ : BufTy).Contents (Elt Ideal)) : S256x80.Idx → EReal :=
  uitofp (F := Ideal) FTy.f32
    (cmpi CmpIPredicate.slt
      (broadcastInDim S256x80 ![0, 1] bcast_S1x80_S256x80_0_1
        (broadcastInDim S1x80 ![1] bcast_S80_S1x80_1 (iotaInDim S80 32 0)))
      (broadcastInDim S256x80 ![0, 1] bcast_S256x1_S256x80_0_1
        (broadcastInDim S256x1 ![0] bcast_S256_S256x1_0
          (Host.reduce IntOp.addi
            (extui 32
              (cmpf CmpFPredicate.ogt
                (extractStridedSlice S256x80 ![0, 0] x5 slices_S256x100_S256x80_0_0)
                (broadcastInDim S256x80 ![] bcast_S_S256x80 (constant (F := Ideal) S_ FTy.f32 0x3F000000#32)))
              natLt_1_32)
            (constantI S_ 32 0#32) reducesTo_S256x80_S256_d1 h_S_))))

set_option maxHeartbeats 2000000 in
/-- The region finds the order array at `ordK` of the launch contents of `main_arg5`. -/
theorem V_order (c : Dev nD) :
    (V m c main_v19 : S256x80.Idx → BitVec 32) = ordK (m ((c.tc : Thread nD τ).loc main_arg5)) := by
  unfold ordK
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 2000000 in
/-- The region finds the keep mask at `keepK` of the launch contents of `main_arg5`. -/
theorem V_keep (c : Dev nD) :
    (V m c main_v26 : S256x80.Idx → EReal) = keepK (m ((c.tc : Thread nD τ).loc main_arg5)) := by
  unfold keepK
  dsimp only [V, V0]
  simp only [hostOps0, hostOps0_1, hostOps0_2, hostOps0_3, hostOps0_4, hostOps0_5, hostOps0_6, List.flatten_cons, List.flatten_nil, List.append_nil, List.cons_append, List.nil_append]
  after_results_simp

/-- Per row, the count of entries exceeding 1/2 among the first 80 columns of `x5` (the buffer the host lines after
    the region read again). -/
def cntK (x5 : (⟨S256x100, .f32⟩ : BufTy).Contents (Elt Ideal)) : S256.Idx → BitVec 32 :=
  Host.reduce IntOp.addi (extui 32 (cmpf CmpFPredicate.ogt (extractStridedSlice S256x80 ![0, 0] x5 slices_S256x100_S256x80_0_0) (broadcastInDim S256x80 ![] bcast_S_S256x80 (constant (F := Ideal) S_ FTy.f32 0x3F000000#32))) natLt_1_32) (constantI S_ 32 0#32) reducesTo_S256x80_S256_d1 h_S_

/-- The text mask, f32[256, 81]: column `j` of row `r` is 1 if `j` is at most the row's count, else 0. -/
def textMaskK (x5 : (⟨S256x100, .f32⟩ : BufTy).Contents (Elt Ideal)) : S256x81.Idx → EReal :=
  uitofp (F := Ideal) FTy.f32 (cmpi CmpIPredicate.sle (broadcastInDim S256x81 ![0, 1] bcast_S1x81_S256x81_0_1 (broadcastInDim S1x81 ![1] bcast_S81_S1x81_1 (iotaInDim S81 32 0))) (broadcastInDim S256x81 ![0, 1] bcast_S256x1_S256x81_0_1 (broadcastInDim S256x1 ![0] bcast_S256_S256x1_0 (Host.reduce IntOp.addi (extui 32 (cmpf CmpFPredicate.ogt (extractStridedSlice S256x80 ![0, 0] x5 slices_S256x100_S256x80_0_0) (broadcastInDim S256x80 ![] bcast_S_S256x80 (constant (F := Ideal) S_ FTy.f32 0x3F000000#32))) natLt_1_32) (constantI S_ 32 0#32) reducesTo_S256x80_S256_d1 h_S_))))

/-- The image mask, f32[256, 81]: all ones, with row 255 overwritten by the comparison of the column index with the
    last row's count. -/
def imgMaskK (x5 : (⟨S256x100, .f32⟩ : BufTy).Contents (Elt Ideal)) : S256x81.Idx → EReal :=
  Host.scatter scatter_S256x81_S1_S81_0_0_0_0 (fun _ b => b) (broadcastInDim S256x81 ![] bcast_S_S256x81 (constant (F := Ideal) S_ FTy.f32 0x3F800000#32)) (broadcastInDim S1 ![] bcast_S_S1 (constantI S_ 32 255#32)) (uitofp (F := Ideal) FTy.f32 (cmpi CmpIPredicate.sle (iotaInDim S81 32 0) (broadcastInDim S81 ![] bcast_S_S81 (shapeCast S_ (extractStridedSlice S1 ![255] (Host.reduce IntOp.addi (extui 32 (cmpf CmpFPredicate.ogt (extractStridedSlice S256x80 ![0, 0] x5 slices_S256x100_S256x80_0_0) (broadcastInDim S256x80 ![] bcast_S_S256x80 (constant (F := Ideal) S_ FTy.f32 0x3F000000#32))) natLt_1_32) (constantI S_ 32 0#32) reducesTo_S256x80_S256_d1 h_S_) slices_S256_S1_255) shapeCasts_S1_S_))))

/-- The modified scores, f32[256, 80]: the first 80 columns of `x5` with the entries below 1/2 zeroed, and column 0
    overwritten by 1 in the rows that are then all zero (else by the row's own column 0). -/
def rrModK (x5 : (⟨S256x100, .f32⟩ : BufTy).Contents (Elt Ideal)) : S256x80.Idx → EReal :=
  Host.scatter scatter_S256x80_S1_S256_0_1_1_0 (fun _ b => b) (select (cmpf CmpFPredicate.olt (extractStridedSlice S256x80 ![0, 0] x5 slices_S256x100_S256x80_0_0) (broadcastInDim S256x80 ![] bcast_S_S256x80 (constant (F := Ideal) S_ FTy.f32 0x3F000000#32))) (broadcastInDim S256x80 ![] bcast_S_S256x80 (id (constant (F := Ideal) S_ FTy.f32 0x00000000#32))) (extractStridedSlice S256x80 ![0, 0] x5 slices_S256x100_S256x80_0_0)) (broadcastInDim S1 ![] bcast_S_S1 (constantI S_ 32 0#32)) (select (Host.reduce IntOp.andi (cmpf CmpFPredicate.oeq (select (cmpf CmpFPredicate.olt (extractStridedSlice S256x80 ![0, 0] x5 slices_S256x100_S256x80_0_0) (broadcastInDim S256x80 ![] bcast_S_S256x80 (constant (F := Ideal) S_ FTy.f32 0x3F000000#32))) (broadcastInDim S256x80 ![] bcast_S_S256x80 (id (constant (F := Ideal) S_ FTy.f32 0x00000000#32))) (extractStridedSlice S256x80 ![0, 0] x5 slices_S256x100_S256x80_0_0)) (broadcastInDim S256x80 ![] bcast_S_S256x80 (constant (F := Ideal) S_ FTy.f32 0x00000000#32))) (constantI S_ 1 1#1) reducesTo_S256x80_S256_d1 h_S_) (broadcastInDim S256 ![] bcast_S_S256 (id (constant (F := Ideal) S_ FTy.f32 0x3F800000#32))) (shapeCast S256 (extractStridedSlice S256x1 ![0, 0] (select (cmpf CmpFPredicate.olt (extractStridedSlice S256x80 ![0, 0] x5 slices_S256x100_S256x80_0_0) (broadcastInDim S256x80 ![] bcast_S_S256x80 (constant (F := Ideal) S_ FTy.f32 0x3F000000#32))) (broadcastInDim S256x80 ![] bcast_S_S256x80 (id (constant (F := Ideal) S_ FTy.f32 0x00000000#32))) (extractStridedSlice S256x80 ![0, 0] x5 slices_S256x100_S256x80_0_0)) slices_S256x80_S256x1_0_0) shapeCasts_S256x1_S256))

/-- The labels, f32[256, 80]: the first 80 columns of `x4`. -/
def labelsK (x4 : (⟨S256x100, .f32⟩ : BufTy).Contents (Elt Ideal)) : S256x80.Idx → EReal :=
  extractStridedSlice S256x80 ![0, 0] x4 slices_S256x100_S256x80_0_0

set_option maxHeartbeats 2000000 in
/-- The counts as the region finds them (no window of the region stages them). -/
theorem V0_cnt (c : Dev nD) :
    (V0 m c (Proc.devRef .tc main_v16) : S256.Idx → BitVec 32) = cntK (m ((c.tc : Thread nD τ).loc main_arg5)) := by
  unfold cntK
  dsimp only [V0]
  simp only [hostOps0, hostOps0_1, hostOps0_2, hostOps0_3, hostOps0_4, hostOps0_5, hostOps0_6, List.flatten_cons, List.flatten_nil, List.append_nil, List.cons_append, List.nil_append]
  after_results_simp

set_option maxRecDepth 200000 in
set_option maxHeartbeats 2000000 in
/-- The modified scores as the region finds them. -/
theorem V0_rrMod (c : Dev nD) :
    (V0 m c (Proc.devRef .tc main_v15) : S256x80.Idx → EReal) = rrModK (m ((c.tc : Thread nD τ).loc main_arg5)) := by
  unfold rrModK
  dsimp only [V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 2000000 in
theorem V0_labels (c : Dev nD) :
    (V0 m c (Proc.devRef .tc main_v1) : S256x80.Idx → EReal) = labelsK (m ((c.tc : Thread nD τ).loc main_arg4)) := by
  unfold labelsK
  dsimp only [V0]
  simp only [hostOps0, hostOps0_1, hostOps0_2, hostOps0_3, hostOps0_4, hostOps0_5, hostOps0_6, List.flatten_cons, List.flatten_nil, List.append_nil, List.cons_append, List.nil_append]
  after_results_simp

/-! ## The values the host lines after the region leave -/

set_option maxHeartbeats 2000000 in
/-- The text mask at the end of @main. -/
theorem tail_v34 (c : Dev nD) :
    (Pipeline.afterTail₀ cfgs (dats m) 0 (V0 m) [hostOps1] c main_v34 : S256x81.Idx → EReal) = textMaskK (m ((c.tc : Thread nD τ).loc main_arg5)) := by
  unfold Pipeline.afterTail₀
  show StableHlo.after hostOps1 _ (Proc.devRef .tc main_v34) = _
  after_results_simp
  rw [Pipeline.withArrays_of_ne _ c (V0 m c) _ main_v16 (by exact (by decide : ∀ w, Pipeline.arrRef spec0 w ≠ main_v16)), V0_cnt m c]
  rfl

set_option maxHeartbeats 2000000 in
/-- The image mask at the end of @main. -/
theorem tail_v42 (c : Dev nD) :
    (Pipeline.afterTail₀ cfgs (dats m) 0 (V0 m) [hostOps1] c main_v42 : S256x81.Idx → EReal) = imgMaskK (m ((c.tc : Thread nD τ).loc main_arg5)) := by
  unfold Pipeline.afterTail₀
  show StableHlo.after hostOps1 _ (Proc.devRef .tc main_v42) = _
  after_results_simp
  rw [Pipeline.withArrays_of_ne _ c (V0 m c) _ main_v16 (by exact (by decide : ∀ w, Pipeline.arrRef spec0 w ≠ main_v16)), V0_cnt m c]
  rfl

set_option maxHeartbeats 2000000 in
/-- The modified scores are written before the region and by nothing after it. -/
theorem tail_v15 (c : Dev nD) :
    (Pipeline.afterTail₀ cfgs (dats m) 0 (V0 m) [hostOps1] c main_v15 : S256x80.Idx → EReal) = rrModK (m ((c.tc : Thread nD τ).loc main_arg5)) := by
  unfold Pipeline.afterTail₀
  show StableHlo.after hostOps1 _ (Proc.devRef .tc main_v15) = _
  after_results_simp
  rw [Pipeline.withArrays_of_ne _ c (V0 m c) _ main_v15 (by exact (by decide : ∀ w, Pipeline.arrRef spec0 w ≠ main_v15))]
  exact V0_rrMod m c

set_option maxHeartbeats 2000000 in
/-- The labels likewise. -/
theorem tail_v1 (c : Dev nD) :
    (Pipeline.afterTail₀ cfgs (dats m) 0 (V0 m) [hostOps1] c main_v1 : S256x80.Idx → EReal) = labelsK (m ((c.tc : Thread nD τ).loc main_arg4)) := by
  unfold Pipeline.afterTail₀
  show StableHlo.after hostOps1 _ (Proc.devRef .tc main_v1) = _
  after_results_simp
  rw [Pipeline.withArrays_of_ne _ c (V0 m c) _ main_v1 (by exact (by decide : ∀ w, Pipeline.arrRef spec0 w ≠ main_v1))]
  exact V0_labels m c

/-! ## These four buffers are no array of the pipeline -/

theorem mem_rest_v34 : main_v34 ∈ Pipeline.restRefs sig (cfgs 0).spec := Pipeline.mem_restRefs_of main_v34 (by decide) (by decide)
theorem mem_rest_v42 : main_v42 ∈ Pipeline.restRefs sig (cfgs 0).spec := Pipeline.mem_restRefs_of main_v42 (by decide) (by decide)
theorem mem_rest_v15 : main_v15 ∈ Pipeline.restRefs sig (cfgs 0).spec := Pipeline.mem_restRefs_of main_v15 (by decide) (by decide)
theorem mem_rest_v1 : main_v1 ∈ Pipeline.restRefs sig (cfgs 0).spec := Pipeline.mem_restRefs_of main_v1 (by decide) (by decide)

end Cert.KernelIdeal.PackHost
end
-- ==== Proof.KernelRun.lean ====
/-
  The idealized kernel's run, read back: every weakly fair execution terminates, the two packed results hold the packed
  arrays `Gpack` of the host's argsort, a feature argument and the host's mask, the four host-computed results hold the host
  operations' values of the arguments, and the arguments are unchanged.

  The two packed results are arrays of the pallas_call (its blocks tile them: `final4`, `final5`); the argsort and the mask
  are what the host operations before the call left in the arrays its first and fourth windows stage; the other four results
  are buffers the call never touches, read after the host operations that follow it.
-/
import proofs.«153286_j54949811585479_2_alg».proof.Proof.BodyIdeal
import proofs.«153286_j54949811585479_2_alg».proof.Proof.PackValue
import proofs.«153286_j54949811585479_2_alg».proof.Proof.PackHost

set_option maxRecDepth 16384

noncomputable section

namespace Cert.KernelIdeal.KernelRun

open Cert.KernelIdeal Cert.KernelIdeal.Gen Cert.KernelIdeal.Pack Cert.KernelIdeal.PackValue Cert.KernelIdeal.PackHost
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The first packed result as a function of the arguments. -/
def visOut (c : Dev nD) : S256x80x768.Idx → EReal :=
  Gpack (ordK (m ((c.tc : Thread nD τ).loc main_arg5))) (m ((c.tc : Thread nD τ).loc main_arg2)) (keepK (m ((c.tc : Thread nD τ).loc main_arg5)))
/-- The second packed result as a function of the arguments. -/
def txtOut (c : Dev nD) : S256x80x768.Idx → EReal :=
  Gpack (ordK (m ((c.tc : Thread nD τ).loc main_arg5))) (m ((c.tc : Thread nD τ).loc main_arg3)) (keepK (m ((c.tc : Thread nD τ).loc main_arg5)))

theorem final_vis (c : Dev nD) : (dats m 0 c).arrAt 4 cfg0.N = visOut m c := by
  rw [final4, V_order, V_keep, V_main_arg2]; rfl
theorem final_txt (c : Dev nD) : (dats m 0 c).arrAt 5 cfg0.N = txtOut m c := by
  rw [final5, V_order, V_keep, V_main_arg3]; rfl

theorem run : θ_run defs (onTc (τ := τ) (main (F := Ideal))) ⟨m, fun _ => 0, ρ⟩ (fun r => ∀ c : Dev nD,
      r.2.mem ((c.tc : Thread nD τ).loc main_v27_0) = visOut m c
      ∧ r.2.mem ((c.tc : Thread nD τ).loc main_v27_1) = txtOut m c
      ∧ r.2.mem ((c.tc : Thread nD τ).loc main_v34) = textMaskK (m ((c.tc : Thread nD τ).loc main_arg5))
      ∧ r.2.mem ((c.tc : Thread nD τ).loc main_v42) = imgMaskK (m ((c.tc : Thread nD τ).loc main_arg5))
      ∧ r.2.mem ((c.tc : Thread nD τ).loc main_v15) = rrModK (m ((c.tc : Thread nD τ).loc main_arg5))
      ∧ r.2.mem ((c.tc : Thread nD τ).loc main_v1) = labelsK (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).1 4).trans (final_vis m c),
     ((h c).1 5).trans (final_txt m c),
     ((h c).2 main_v34 mem_rest_v34).trans (tail_v34 m c),
     ((h c).2 main_v42 mem_rest_v42).trans (tail_v42 m c),
     ((h c).2 main_v15 mem_rest_v15).trans (tail_v15 m c),
     ((h c).2 main_v1 mem_rest_v1).trans (tail_v1 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).1 1).trans (((dats m 0 c).arrAt_in 1 rfl _).trans ((A_eq m c 1).trans (V_main_arg2 m c))),
     ((h c).1 2).trans (((dats m 0 c).arrAt_in 2 rfl _).trans ((A_eq m c 2).trans (V_main_arg3 m c))),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (Cert.KernelIdeal.Body.run_main (F := Ideal) m ρ)

end Cert.KernelIdeal.KernelRun

end
-- ==== Proof.RefRead.lean ====
import proofs.«153286_j54949811585479_2_alg».proof.Proof.RefReadP
import Idealize.ShloMosaic.Lib.ValueIdx
import Idealize.ShloMosaic.Lib.ReduceAll
import Idealize.ShloMosaic.Lib.Affine
import Idealize.ShloMosaic.PureOps.Reduce

/-!
# The reference's two packed results read at an index

The reference sorts each row's 80 retrieval flags (a stable argsort of `1 - (rr > 0.5)`), gathers the visual and the
textual features' rows in that order (`take_along_axis`: negative indices wrapped by 80, out-of-range ones replaced by
a NaN), and multiplies by the row mask `r < count[b]`. Here each result is read at `(b, r, d)` under the one fact the
sort gives: its entry at `(b, r)` is a row number in `[0, 80)`. The wrap is then the identity, the in-bounds test
passes, the NaN branch is gone, and the gather reads row `order[b, r]` of the argument. The sort and the counts stay
opaque terms throughout.
-/

noncomputable section

namespace Cert.ReferenceIdeal.RefRead

open Cert.ReferenceIdeal Cert.ReferenceIdeal.Gen Cert.ReferenceIdeal.ReadP Idealize.ShloMosaic Idealize.ShloMosaic.ValueIdx

/-- The two argsorts are one term: the same keys `1 - (rr > 0.5)`, the same iota, the same comparator. -/
theorem order_eq (x5 : (⟨S256x100, .f32⟩ : BufTy).Contents (Elt Ideal)) : val_main_v38 (F := Ideal) x5 = val_main_v23 (F := Ideal) x5 := rfl

/-! ## The operations the generated read lemmas leave: the gather, the unit-axis reduce, the integer tests -/

/-- Operand axis 0 is the batching axis: the operand index there is the result's batch coordinate. -/
theorem gather_coord0 (idx : IVec S256x80x1 32) (b : Fin 256) (r : Fin 80) (d : Fin 768) :
    gather_S256x80x768_S256x80x1_S256x80x768_2_1_0_0_1_2_11768.start (ix3 b r d) idx (0 : Fin 3) + gather_S256x80x768_S256x80x1_S256x80x768_2_1_0_0_1_2_11768.batchCoord (ix3 b r d) (0 : Fin 3)
      + gather_S256x80x768_S256x80x1_S256x80x768_2_1_0_0_1_2_11768.offCoord (ix3 b r d) (0 : Fin 3) = b.val := by
  rw [GatherDims.start_batching _ _ _ _ (by decide), GatherDims.offCoord_eq_zero _ _ _ (by decide),
    Nat.zero_add, Nat.add_zero]
  rfl

/-- Operand axis 1 is the gathered axis: the start index `idx[b, r, 0]` read signed and clamped into `[0, 79]`. -/
theorem gather_coord1 (idx : IVec S256x80x1 32) (b : Fin 256) (r : Fin 80) (d : Fin 768) :
    gather_S256x80x768_S256x80x1_S256x80x768_2_1_0_0_1_2_11768.start (ix3 b r d) idx (1 : Fin 3) + gather_S256x80x768_S256x80x1_S256x80x768_2_1_0_0_1_2_11768.batchCoord (ix3 b r d) (1 : Fin 3)
      + gather_S256x80x768_S256x80x1_S256x80x768_2_1_0_0_1_2_11768.offCoord (ix3 b r d) (1 : Fin 3) = min (idx (ix3 b r (0 : Fin 1))).toInt.toNat 79 := by
  rw [GatherDims.batchCoord_eq_zero _ _ _ (by decide), GatherDims.offCoord_eq_zero _ _ _ (by decide),
    Nat.add_zero]
  unfold GatherDims.start
  rw [dif_pos (by decide)]
  have hsi : gather_S256x80x768_S256x80x1_S256x80x768_2_1_0_0_1_2_11768.siIdx (ix3 b r d)
      ⟨List.idxOf (1 : Fin 3) gather_S256x80x768_S256x80x1_S256x80x768_2_1_0_0_1_2_11768.startIndexMap, List.idxOf_lt_length_iff.2 (by decide)⟩ = ix3 b r (0 : Fin 1) := by
    funext c; refine Fin.ext ?_
    match c with
    | ⟨0, _⟩ => rfl
    | ⟨1, _⟩ => rfl
    | ⟨2, _⟩ => rfl
  rw [hsi]
  rfl

/-- Operand axis 2 is the offset axis: the result's last coordinate. -/
theorem gather_coord2 (idx : IVec S256x80x1 32) (b : Fin 256) (r : Fin 80) (d : Fin 768) :
    gather_S256x80x768_S256x80x1_S256x80x768_2_1_0_0_1_2_11768.start (ix3 b r d) idx (2 : Fin 3) + gather_S256x80x768_S256x80x1_S256x80x768_2_1_0_0_1_2_11768.batchCoord (ix3 b r d) (2 : Fin 3)
      + gather_S256x80x768_S256x80x1_S256x80x768_2_1_0_0_1_2_11768.offCoord (ix3 b r d) (2 : Fin 3) = d.val := by
  rw [GatherDims.batchCoord_eq_zero _ _ _ (by decide), Nat.add_zero]
  unfold GatherDims.start
  rw [dif_neg (by decide), Nat.zero_add]
  rfl

/-- The gather of rows along axis 1 with batch axis 0, read at `(b, r, d)`: the operand's row at the start index
    `idx[b, r, 0]`, read signed and clamped into `[0, 79]`, in batch `b`, column `d`. -/
theorem gather_row_apply {α : Type} (x : S256x80x768.Idx → α) (idx : IVec S256x80x1 32)
    (b : Fin 256) (r : Fin 80) (d : Fin 768) :
    Host.gather gather_S256x80x768_S256x80x1_S256x80x768_2_1_0_0_1_2_11768 x idx (ix3 b r d)
      = x (ix3 b ⟨min (idx (ix3 b r (0 : Fin 1))).toInt.toNat 79, by omega⟩ d) := by
  unfold Host.gather
  congr 1
  funext a
  refine Fin.ext ?_
  match a with
  | ⟨0, _⟩ => exact gather_coord0 idx b r d
  | ⟨1, _⟩ => exact gather_coord1 idx b r d
  | ⟨2, _⟩ => exact gather_coord2 idx b r d

/-- The same with the clamped start index named: if it is the row `k`, the gather reads row `k`. -/
theorem gather_row_apply_of_eq {α : Type} (x : S256x80x768.Idx → α) (idx : IVec S256x80x1 32)
    (b : Fin 256) (r : Fin 80) (d : Fin 768) (k : Fin 80)
    (hk : min (idx (ix3 b r (0 : Fin 1))).toInt.toNat 79 = k.val) :
    Host.gather gather_S256x80x768_S256x80x1_S256x80x768_2_1_0_0_1_2_11768 x idx (ix3 b r d) = x (ix3 b k d) :=
  (gather_row_apply x idx b r d).trans (congrArg (fun k' : Fin 80 => x (ix3 b k' d)) (Fin.ext hk))

/-- The `and`-reduce over the unit axis 2 of a [256, 80, 1] array of bits, read at `(b, r)`: the one element
    `x[b, r, 0]` combined with the initial value. -/
theorem reduce_and_unit_apply (x : S256x80x1.Idx → BitVec 1) (init : S_.Idx → BitVec 1) (b : Fin 256) (r : Fin 80) :
    Host.reduce IntOp.andi x init reducesTo_S256x80x1_S256x80_d2 h_S_ (ix2 b r)
      = IntOp.andi (x (ix3 b r (0 : Fin 1))) (init ix0) := by
  have hR : S256x80x1.Reduces [(2 : Fin 3)] S256x80 := by decide
  rw [Host.reduce_eq_fold_single IntOp.andi x init reducesTo_S256x80x1_S256x80_d2 hR h_S_ (ix2 b r)]
  have hu : (Finset.univ : Finset (Fin (S256x80x1.size (2 : Fin 3))))
      = {(⟨0, by decide⟩ : Fin (S256x80x1.size (2 : Fin 3)))} := by decide
  rw [hu, Finset.fold_singleton]
  have h1 : hR.lift (ix2 b r) (⟨0, by decide⟩ : Fin (S256x80x1.size (2 : Fin 3))) = ix3 b r (0 : Fin 1) := by
    funext c; refine Fin.ext ?_
    match c with
    | ⟨0, _⟩ => rfl
    | ⟨1, _⟩ => rfl
    | ⟨2, _⟩ => rfl
  have h2 : Shape.Idx.first h_S_ = (ix0 : S_.Idx) := funext fun a => a.elim0
  rw [Function.comp_apply, h1, h2]

/-- A start index in `[0, 80)` is not negative, so the wrap `select(ord < 0, ord + 80, ord)` leaves it as it is. -/
theorem wrap_of_in_range (ord : BitVec 32) (hlo : 0 ≤ ord.toInt) :
    Scalar.select (IntOp.cmpi .slt ord 0#32) (IntOp.addi ord 80#32) ord = ord := by
  have h : IntOp.cmpi .slt ord 0#32 = 0#1 := eq_zero_of_ne_one (fun h1 => by
    have h2 := IntOp.cmpi_slt.1 h1
    have h0 : (0#32 : BitVec 32).toInt = 0 := by decide
    omega)
  rw [h, select_zero]

/-- A start index in `[0, 80)` passes the bounds test `0 ≤ ord ∧ ord ≤ 79`. -/
theorem in_bounds_of_in_range (ord : BitVec 32) (hlo : 0 ≤ ord.toInt) (hhi : ord.toInt < 80) :
    IntOp.andi (IntOp.cmpi .sge ord 0#32) (IntOp.cmpi .sle ord 79#32) = 1#1 := by
  rw [IntOp.andi_eq_one]
  refine ⟨IntOp.cmpi_sge.2 ?_, IntOp.cmpi_sle.2 ?_⟩
  · have h0 : (0#32 : BitVec 32).toInt = 0 := by decide
    omega
  · have h79 : (79#32 : BitVec 32).toInt = 79 := by decide
    omega

/-- The word of a natural number below 80 reads back, signed, as that number. -/
theorem toInt_ofNat_lt80 (o : Fin 80) : (BitVec.ofNat 32 o.val).toInt = (o.val : Int) := by
  have h := o.isLt
  rw [BitVec.toInt_eq_toNat_cond, BitVec.toNat_ofNat, Nat.mod_eq_of_lt (by omega), if_pos (by omega)]

/-! ## The visual branch -/

/-- The start-index array of the visual gather at `(b, r, 0)`: the sorted order's entry, wrapped if negative. -/
theorem start_vis_apply (x5 : (⟨S256x100, .f32⟩ : BufTy).Contents (Elt Ideal)) (b : Fin 256) (r : Fin 80) :
    val_main_call3_v4 (F := Ideal) x5 (ix3 b r (0 : Fin 1))
      = Scalar.select (IntOp.cmpi .slt (val_main_v23 (F := Ideal) x5 (ix2 b r)) 0#32) (IntOp.addi (val_main_v23 (F := Ideal) x5 (ix2 b r)) 80#32) (val_main_v23 (F := Ideal) x5 (ix2 b r)) := by
  have hi : idx_main_v24 (ix3 b r (0 : Fin 1)) = ix2 b r := by
    funext a; refine Fin.ext ?_
    match a with
    | ⟨0, _⟩ => rfl
    | ⟨1, _⟩ => rfl
  rw [val_main_call3_v4_apply, val_main_call3_v1_apply, val_main_call3_v3_apply, val_main_v24_apply,
    val_main_call3_v0_apply, val_main_call3_c_apply, val_main_call3_v2_apply, val_main_call3_c_0_apply, hi]

/-- The in-bounds bit of the visual gather at `(b, r)`: `0 ≤ start ∧ start ≤ 79`, and-reduced over the unit axis. -/
theorem ok_vis_apply (x5 : (⟨S256x100, .f32⟩ : BufTy).Contents (Elt Ideal)) (b : Fin 256) (r : Fin 80) :
    val_main_call3_v11 (F := Ideal) x5 (ix2 b r)
      = IntOp.andi (IntOp.andi (IntOp.cmpi .sge (val_main_call3_v4 (F := Ideal) x5 (ix3 b r (0 : Fin 1))) 0#32)
          (IntOp.cmpi .sle (val_main_call3_v4 (F := Ideal) x5 (ix3 b r (0 : Fin 1))) 79#32)) 1#1 := by
  unfold val_main_call3_v11
  refine (reduce_and_unit_apply _ _ b r).trans ?_
  rw [val_main_call3_v10_apply, val_main_call3_v6_apply, val_main_call3_v9_apply, val_main_call3_v5_apply,
    val_main_call3_c_2_apply, val_main_call3_v8_apply, val_main_call3_v7_apply, val_main_call3_c_1_apply,
    val_main_call3_c_3_apply]

/-- The row mask of the visual result at `(b, r, d)`: the bit `r < count[b]` converted to a float. -/
theorem mask_vis_apply (x5 : (⟨S256x100, .f32⟩ : BufTy).Contents (Elt Ideal)) (b : Fin 256) (r : Fin 80) (d : Fin 768) :
    val_main_v34 (F := Ideal) x5 (ix3 b r d)
      = FloatOps.uitofp (F := Ideal) .f32 (IntOp.cmpi .slt (BitVec.ofNat 32 r.val) (val_main_v20 (F := Ideal) x5 (ix1 b))) := by
  have e1 : idx_main_v28 (idx_main_v30 (idx_main_v32 (idx_main_v34 (ix3 b r d)))) = ix1 b := by
    funext a; refine Fin.ext ?_
    match a with
    | ⟨0, _⟩ => rfl
  rw [val_main_v34_apply, val_main_v33_apply, val_main_v32_apply, val_main_v31_apply, val_main_v29_apply,
    val_main_v27_apply, val_main_v26_apply, val_main_v30_apply, val_main_v28_apply, e1]

/-- Row `k` of the first 80 rows of the visual argument, through the reshape [256,100,1,768] → [256,100,768] and the
    slice to [256,80,768]: the argument's own entry `(b, k, 0, d)`. -/
theorem sliced_vis_apply (x2 : (⟨S256x100x1x768, .f32⟩ : BufTy).Contents (Elt Ideal)) (b : Fin 256) (k : Fin 80) (d : Fin 768) :
    val_main_v1 (F := Ideal) x2 (ix3 b k d) = x2 (ix4 b ⟨k.val, by omega⟩ (0 : Fin 1) d) := by
  rw [val_main_v1_apply, val_main_v0_apply]
  refine congrArg x2 ?_
  funext a; refine Fin.ext ?_
  have hb := b.isLt
  have hk := k.isLt
  have hd := d.isLt
  match a with
  | ⟨0, _⟩ => show ((b.val * 100 + k.val) * 768 + d.val) / 76800 = b.val; omega
  | ⟨1, _⟩ => show ((b.val * 100 + k.val) * 768 + d.val) / 768 % 100 = k.val; omega
  | ⟨2, _⟩ => rfl
  | ⟨3, _⟩ => show ((b.val * 100 + k.val) * 768 + d.val) % 768 = d.val; omega

/-- The visual gather at `(b, r, d)`, when the sorted order's entry at `(b, r)` is a word `ord` that reads, signed, as a
    row number in `[0, 80)`: the wrap and the clamp are the identity and the gather reads row `ord` of the argument.
    The entry is a variable: the statement does not depend on what the sort is. -/
theorem gathered_vis_apply_of_eq (x2 : (⟨S256x100x1x768, .f32⟩ : BufTy).Contents (Elt Ideal)) (x5 : (⟨S256x100, .f32⟩ : BufTy).Contents (Elt Ideal))
    (b : Fin 256) (r : Fin 80) (d : Fin 768) (ord : BitVec 32) (hord : val_main_v23 (F := Ideal) x5 (ix2 b r) = ord)
    (hlo : 0 ≤ ord.toInt) (hhi : ord.toInt < 80) :
    val_main_call3_v12 (F := Ideal) x2 x5 (ix3 b r d)
      = x2 (ix4 b ⟨ord.toInt.toNat, by omega⟩ (0 : Fin 1) d) := by
  have hs := start_vis_apply x5 b r
  rw [hord, wrap_of_in_range _ hlo] at hs
  have hk : min (val_main_call3_v4 (F := Ideal) x5 (ix3 b r (0 : Fin 1))).toInt.toNat 79 = ord.toInt.toNat := by
    rw [hs]; omega
  unfold val_main_call3_v12
  exact (gather_row_apply_of_eq (val_main_v1 (F := Ideal) x2) (val_main_call3_v4 (F := Ideal) x5) b r d
    ⟨ord.toInt.toNat, by omega⟩ hk).trans (sliced_vis_apply x2 b ⟨ord.toInt.toNat, by omega⟩ d)

/-- THE VISUAL RESULT AT `(b, r, d)`, when the sorted order's entry at `(b, r)` is a word `ord` that reads, signed, as
    a row number in `[0, 80)`: the in-bounds select keeps the gathered value, the gather reads row `ord` of the
    argument, and the product with the row mask remains. -/
theorem packed_vis_apply_of_eq (x2 : (⟨S256x100x1x768, .f32⟩ : BufTy).Contents (Elt Ideal)) (x5 : (⟨S256x100, .f32⟩ : BufTy).Contents (Elt Ideal))
    (b : Fin 256) (r : Fin 80) (d : Fin 768) (ord : BitVec 32) (hord : val_main_v23 (F := Ideal) x5 (ix2 b r) = ord)
    (hlo : 0 ≤ ord.toInt) (hhi : ord.toInt < 80) :
    val_main_v35 (F := Ideal) x2 x5 (ix3 b r d)
      = x2 (ix4 b ⟨ord.toInt.toNat, by omega⟩ (0 : Fin 1) d) * val_main_v34 (F := Ideal) x5 (ix3 b r d) := by
  have hs := start_vis_apply x5 b r
  rw [hord, wrap_of_in_range _ hlo] at hs
  have hok : val_main_call3_v11 (F := Ideal) x5 (ix2 b r) = 1#1 := by
    rw [ok_vis_apply, hs, in_bounds_of_in_range _ hlo hhi]
    decide
  have hi13 : idx_main_call3_v13 (ix3 b r d) = ix2 b r := by
    funext a; refine Fin.ext ?_
    match a with
    | ⟨0, _⟩ => rfl
    | ⟨1, _⟩ => rfl
  rw [val_main_v35_apply, val_main_v25_apply, val_main_call3_v13_apply, hi13, hok, select_one,
    gathered_vis_apply_of_eq x2 x5 b r d ord hord hlo hhi]
  rfl

/-- The same with the hypotheses stated on the order's entry itself. -/
theorem packed_vis_apply (x2 : (⟨S256x100x1x768, .f32⟩ : BufTy).Contents (Elt Ideal)) (x5 : (⟨S256x100, .f32⟩ : BufTy).Contents (Elt Ideal))
    (b : Fin 256) (r : Fin 80) (d : Fin 768)
    (hlo : 0 ≤ (val_main_v23 (F := Ideal) x5 (ix2 b r)).toInt) (hhi : (val_main_v23 (F := Ideal) x5 (ix2 b r)).toInt < 80) :
    val_main_v35 (F := Ideal) x2 x5 (ix3 b r d)
      = x2 (ix4 b ⟨(val_main_v23 (F := Ideal) x5 (ix2 b r)).toInt.toNat, by omega⟩ (0 : Fin 1) d)
          * val_main_v34 (F := Ideal) x5 (ix3 b r d) :=
  packed_vis_apply_of_eq x2 x5 b r d _ rfl hlo hhi

/-- The same with the order's entry given as the word of a row number `o : Fin 80`. -/
theorem packed_vis_apply_ofNat (x2 : (⟨S256x100x1x768, .f32⟩ : BufTy).Contents (Elt Ideal)) (x5 : (⟨S256x100, .f32⟩ : BufTy).Contents (Elt Ideal))
    (b : Fin 256) (r : Fin 80) (d : Fin 768) (o : Fin 80) (ho : val_main_v23 (F := Ideal) x5 (ix2 b r) = BitVec.ofNat 32 o.val) :
    val_main_v35 (F := Ideal) x2 x5 (ix3 b r d)
      = x2 (ix4 b ⟨o.val, by omega⟩ (0 : Fin 1) d) * val_main_v34 (F := Ideal) x5 (ix3 b r d) := by
  have ht := toInt_ofNat_lt80 o
  have ho' := o.isLt
  have hlo : 0 ≤ (BitVec.ofNat 32 o.val).toInt := by rw [ht]; omega
  have hhi : (BitVec.ofNat 32 o.val).toInt < 80 := by rw [ht]; omega
  rw [packed_vis_apply_of_eq x2 x5 b r d _ ho hlo hhi]
  have e : (⟨(BitVec.ofNat 32 o.val).toInt.toNat, by rw [ht]; omega⟩ : Fin 100) = ⟨o.val, by omega⟩ :=
    Fin.ext (by show (BitVec.ofNat 32 o.val).toInt.toNat = o.val; rw [ht]; omega)
  rw [e]

/-! ## The textual branch -/

/-- The start-index array of the textual gather at `(b, r, 0)`: the sorted order's entry, wrapped if negative. -/
theorem start_txt_apply (x5 : (⟨S256x100, .f32⟩ : BufTy).Contents (Elt Ideal)) (b : Fin 256) (r : Fin 80) :
    val_main_call5_v4 (F := Ideal) x5 (ix3 b r (0 : Fin 1))
      = Scalar.select (IntOp.cmpi .slt (val_main_v38 (F := Ideal) x5 (ix2 b r)) 0#32) (IntOp.addi (val_main_v38 (F := Ideal) x5 (ix2 b r)) 80#32) (val_main_v38 (F := Ideal) x5 (ix2 b r)) := by
  have hi : idx_main_v39 (ix3 b r (0 : Fin 1)) = ix2 b r := by
    funext a; refine Fin.ext ?_
    match a with
    | ⟨0, _⟩ => rfl
    | ⟨1, _⟩ => rfl
  rw [val_main_call5_v4_apply, val_main_call5_v1_apply, val_main_call5_v3_apply, val_main_v39_apply,
    val_main_call5_v0_apply, val_main_call5_c_apply, val_main_call5_v2_apply, val_main_call5_c_0_apply, hi]

/-- The in-bounds bit of the textual gather at `(b, r)`: `0 ≤ start ∧ start ≤ 79`, and-reduced over the unit axis. -/
theorem ok_txt_apply (x5 : (⟨S256x100, .f32⟩ : BufTy).Contents (Elt Ideal)) (b : Fin 256) (r : Fin 80) :
    val_main_call5_v11 (F := Ideal) x5 (ix2 b r)
      = IntOp.andi (IntOp.andi (IntOp.cmpi .sge (val_main_call5_v4 (F := Ideal) x5 (ix3 b r (0 : Fin 1))) 0#32)
          (IntOp.cmpi .sle (val_main_call5_v4 (F := Ideal) x5 (ix3 b r (0 : Fin 1))) 79#32)) 1#1 := by
  unfold val_main_call5_v11
  refine (reduce_and_unit_apply _ _ b r).trans ?_
  rw [val_main_call5_v10_apply, val_main_call5_v6_apply, val_main_call5_v9_apply, val_main_call5_v5_apply,
    val_main_call5_c_2_apply, val_main_call5_v8_apply, val_main_call5_v7_apply, val_main_call5_c_1_apply,
    val_main_call5_c_3_apply]

/-- The row mask of the textual result at `(b, r, d)`: the bit `r < count[b]` converted to a float. -/
theorem mask_txt_apply (x5 : (⟨S256x100, .f32⟩ : BufTy).Contents (Elt Ideal)) (b : Fin 256) (r : Fin 80) (d : Fin 768) :
    val_main_v49 (F := Ideal) x5 (ix3 b r d)
      = FloatOps.uitofp (F := Ideal) .f32 (IntOp.cmpi .slt (BitVec.ofNat 32 r.val) (val_main_v20 (F := Ideal) x5 (ix1 b))) := by
  have e1 : idx_main_v43 (idx_main_v45 (idx_main_v47 (idx_main_v49 (ix3 b r d)))) = ix1 b := by
    funext a; refine Fin.ext ?_
    match a with
    | ⟨0, _⟩ => rfl
  rw [val_main_v49_apply, val_main_v48_apply, val_main_v47_apply, val_main_v46_apply, val_main_v44_apply,
    val_main_v42_apply, val_main_v41_apply, val_main_v45_apply, val_main_v43_apply, e1]

/-- Row `k` of the first 80 rows of the textual argument, through the reshape [256,100,1,768] → [256,100,768] and the
    slice to [256,80,768]: the argument's own entry `(b, k, 0, d)`. -/
theorem sliced_txt_apply (x3 : (⟨S256x100x1x768, .f32⟩ : BufTy).Contents (Elt Ideal)) (b : Fin 256) (k : Fin 80) (d : Fin 768) :
    val_main_v3 (F := Ideal) x3 (ix3 b k d) = x3 (ix4 b ⟨k.val, by omega⟩ (0 : Fin 1) d) := by
  rw [val_main_v3_apply, val_main_v2_apply]
  refine congrArg x3 ?_
  funext a; refine Fin.ext ?_
  have hb := b.isLt
  have hk := k.isLt
  have hd := d.isLt
  match a with
  | ⟨0, _⟩ => show ((b.val * 100 + k.val) * 768 + d.val) / 76800 = b.val; omega
  | ⟨1, _⟩ => show ((b.val * 100 + k.val) * 768 + d.val) / 768 % 100 = k.val; omega
  | ⟨2, _⟩ => rfl
  | ⟨3, _⟩ => show ((b.val * 100 + k.val) * 768 + d.val) % 768 = d.val; omega

/-- The textual gather at `(b, r, d)`, when the sorted order's entry at `(b, r)` is a word `ord` that reads, signed, as a
    row number in `[0, 80)`: the wrap and the clamp are the identity and the gather reads row `ord` of the argument.
    The entry is a variable: the statement does not depend on what the sort is. -/
theorem gathered_txt_apply_of_eq (x3 : (⟨S256x100x1x768, .f32⟩ : BufTy).Contents (Elt Ideal)) (x5 : (⟨S256x100, .f32⟩ : BufTy).Contents (Elt Ideal))
    (b : Fin 256) (r : Fin 80) (d : Fin 768) (ord : BitVec 32) (hord : val_main_v23 (F := Ideal) x5 (ix2 b r) = ord)
    (hlo : 0 ≤ ord.toInt) (hhi : ord.toInt < 80) :
    val_main_call5_v12 (F := Ideal) x3 x5 (ix3 b r d)
      = x3 (ix4 b ⟨ord.toInt.toNat, by omega⟩ (0 : Fin 1) d) := by
  have hs := start_txt_apply x5 b r
  rw [order_eq, hord, wrap_of_in_range _ hlo] at hs
  have hk : min (val_main_call5_v4 (F := Ideal) x5 (ix3 b r (0 : Fin 1))).toInt.toNat 79 = ord.toInt.toNat := by
    rw [hs]; omega
  unfold val_main_call5_v12
  exact (gather_row_apply_of_eq (val_main_v3 (F := Ideal) x3) (val_main_call5_v4 (F := Ideal) x5) b r d
    ⟨ord.toInt.toNat, by omega⟩ hk).trans (sliced_txt_apply x3 b ⟨ord.toInt.toNat, by omega⟩ d)

/-- THE TEXTUAL RESULT AT `(b, r, d)`, when the sorted order's entry at `(b, r)` is a word `ord` that reads, signed, as
    a row number in `[0, 80)`: the in-bounds select keeps the gathered value, the gather reads row `ord` of the
    argument, and the product with the row mask remains. -/
theorem packed_txt_apply_of_eq (x3 : (⟨S256x100x1x768, .f32⟩ : BufTy).Contents (Elt Ideal)) (x5 : (⟨S256x100, .f32⟩ : BufTy).Contents (Elt Ideal))
    (b : Fin 256) (r : Fin 80) (d : Fin 768) (ord : BitVec 32) (hord : val_main_v23 (F := Ideal) x5 (ix2 b r) = ord)
    (hlo : 0 ≤ ord.toInt) (hhi : ord.toInt < 80) :
    val_main_v50 (F := Ideal) x3 x5 (ix3 b r d)
      = x3 (ix4 b ⟨ord.toInt.toNat, by omega⟩ (0 : Fin 1) d) * val_main_v49 (F := Ideal) x5 (ix3 b r d) := by
  have hs := start_txt_apply x5 b r
  rw [order_eq, hord, wrap_of_in_range _ hlo] at hs
  have hok : val_main_call5_v11 (F := Ideal) x5 (ix2 b r) = 1#1 := by
    rw [ok_txt_apply, hs, in_bounds_of_in_range _ hlo hhi]
    decide
  have hi13 : idx_main_call5_v13 (ix3 b r d) = ix2 b r := by
    funext a; refine Fin.ext ?_
    match a with
    | ⟨0, _⟩ => rfl
    | ⟨1, _⟩ => rfl
  rw [val_main_v50_apply, val_main_v40_apply, val_main_call5_v13_apply, hi13, hok, select_one,
    gathered_txt_apply_of_eq x3 x5 b r d ord hord hlo hhi]
  rfl

/-- The same with the hypotheses stated on the order's entry itself. -/
theorem packed_txt_apply (x3 : (⟨S256x100x1x768, .f32⟩ : BufTy).Contents (Elt Ideal)) (x5 : (⟨S256x100, .f32⟩ : BufTy).Contents (Elt Ideal))
    (b : Fin 256) (r : Fin 80) (d : Fin 768)
    (hlo : 0 ≤ (val_main_v23 (F := Ideal) x5 (ix2 b r)).toInt) (hhi : (val_main_v23 (F := Ideal) x5 (ix2 b r)).toInt < 80) :
    val_main_v50 (F := Ideal) x3 x5 (ix3 b r d)
      = x3 (ix4 b ⟨(val_main_v23 (F := Ideal) x5 (ix2 b r)).toInt.toNat, by omega⟩ (0 : Fin 1) d)
          * val_main_v49 (F := Ideal) x5 (ix3 b r d) :=
  packed_txt_apply_of_eq x3 x5 b r d _ rfl hlo hhi

/-- The same with the order's entry given as the word of a row number `o : Fin 80`. -/
theorem packed_txt_apply_ofNat (x3 : (⟨S256x100x1x768, .f32⟩ : BufTy).Contents (Elt Ideal)) (x5 : (⟨S256x100, .f32⟩ : BufTy).Contents (Elt Ideal))
    (b : Fin 256) (r : Fin 80) (d : Fin 768) (o : Fin 80) (ho : val_main_v23 (F := Ideal) x5 (ix2 b r) = BitVec.ofNat 32 o.val) :
    val_main_v50 (F := Ideal) x3 x5 (ix3 b r d)
      = x3 (ix4 b ⟨o.val, by omega⟩ (0 : Fin 1) d) * val_main_v49 (F := Ideal) x5 (ix3 b r d) := by
  have ht := toInt_ofNat_lt80 o
  have ho' := o.isLt
  have hlo : 0 ≤ (BitVec.ofNat 32 o.val).toInt := by rw [ht]; omega
  have hhi : (BitVec.ofNat 32 o.val).toInt < 80 := by rw [ht]; omega
  rw [packed_txt_apply_of_eq x3 x5 b r d _ ho hlo hhi]
  have e : (⟨(BitVec.ofNat 32 o.val).toInt.toNat, by rw [ht]; omega⟩ : Fin 100) = ⟨o.val, by omega⟩ :=
    Fin.ext (by show (BitVec.ofNat 32 o.val).toInt.toNat = o.val; rw [ht]; omega)
  rw [e]

end Cert.ReferenceIdeal.RefRead

end
-- ==== Proof.RefPacked.lean ====
import proofs.«153286_j54949811585479_2_alg».proof.Proof.RefRead
import proofs.«153286_j54949811585479_2_alg».proof.Proof.PackMath

/-!
# The reference's two packed results as one-hot row sums

Each sorted-order entry is the word of a row number below 80, so the gather of row `order[b, r]` is the sum over the
80 rows weighted by the 0/1 indicator of the order word, and both results carry the same row mask `r < count[b]`.
-/

noncomputable section

namespace Cert.ReferenceIdeal.RefPacked

open Cert.ReferenceIdeal Cert.ReferenceIdeal.Gen Cert.ReferenceIdeal.ReadP Cert.ReferenceIdeal.RefRead
  Idealize.ShloMosaic Idealize.ShloMosaic.ValueIdx

/-- Every entry of the sorted order is the word of a row number below 80: the sort carries the positions 0 … 79. -/
theorem order_entry (x5 : (⟨S256x100, .f32⟩ : BufTy).Contents (Elt Ideal)) (b : Fin 256) (r : Fin 80) :
    ∃ o : Fin 80, val_main_v23 (F := Ideal) x5 (ix2 b r) = BitVec.ofNat 32 o.val := by
  unfold val_main_v23 val_main_call2_v0
  exact Cert.PackMath.argsort_lt _ _ _

/-- The second row-mask compare is the first: the same iota against the same counts. -/
theorem mask_bits_eq (x5 : (⟨S256x100, .f32⟩ : BufTy).Contents (Elt Ideal)) : val_main_v46 (F := Ideal) x5 = val_main_v31 (F := Ideal) x5 := rfl

/-- The visual result's row mask at `(b, r, d)` is the converted bit `r < count[b]` of the [256, 80] compare. -/
theorem mask_vis' (x5 : (⟨S256x100, .f32⟩ : BufTy).Contents (Elt Ideal)) (b : Fin 256) (r : Fin 80) (d : Fin 768) :
    val_main_v34 (F := Ideal) x5 (ix3 b r d) = FloatOps.uitofp (F := Ideal) .f32 (val_main_v31 (F := Ideal) x5 (ix2 b r)) := by
  have e : idx_main_v32 (idx_main_v34 (ix3 b r d)) = ix2 b r := by
    funext a; refine Fin.ext ?_
    match a with
    | ⟨0, _⟩ => rfl
    | ⟨1, _⟩ => rfl
  rw [val_main_v34_apply, val_main_v33_apply, val_main_v32_apply, e]

/-- The textual result's row mask at `(b, r, d)` is the same converted bit. -/
theorem mask_txt' (x5 : (⟨S256x100, .f32⟩ : BufTy).Contents (Elt Ideal)) (b : Fin 256) (r : Fin 80) (d : Fin 768) :
    val_main_v49 (F := Ideal) x5 (ix3 b r d) = FloatOps.uitofp (F := Ideal) .f32 (val_main_v31 (F := Ideal) x5 (ix2 b r)) := by
  have e : idx_main_v47 (idx_main_v49 (ix3 b r d)) = ix2 b r := by
    funext a; refine Fin.ext ?_
    match a with
    | ⟨0, _⟩ => rfl
    | ⟨1, _⟩ => rfl
  rw [val_main_v49_apply, val_main_v48_apply, val_main_v47_apply, e, mask_bits_eq]

/-- Selecting row `o` and then masking is the one-hot row sum under `o`'s word, masked. -/
theorem select_mul (o : Fin 80) (v : Fin 80 → EReal) (u : EReal) :
    v o * u = (∑ s : Fin 80, Cert.PackMath.oh (BitVec.ofNat 32 o.val) s * v s) * u := by
  rw [Cert.PackMath.oh_sum]

/-- THE VISUAL RESULT: at every index the one-hot row sum of the argument's first 80 rows under the order word, times
    the row mask. -/
theorem packed_vis_eq (x2 : (⟨S256x100x1x768, .f32⟩ : BufTy).Contents (Elt Ideal)) (x5 : (⟨S256x100, .f32⟩ : BufTy).Contents (Elt Ideal)) :
    val_main_v35 (F := Ideal) x2 x5 = fun i => (∑ s : Fin 80, Cert.PackMath.oh (val_main_v23 (F := Ideal) x5 (ix2 (i 0) (i 1))) s * x2 (ix4 (i 0) (⟨s.val, by have := s.isLt; omega⟩ : Fin 100) (0 : Fin 1) (i 2))) * FloatOps.uitofp (F := Ideal) .f32 (val_main_v31 (F := Ideal) x5 (ix2 (i 0) (i 1))) := by
  funext i
  obtain ⟨b, r, d, rfl⟩ : ∃ (b : Fin 256) (r : Fin 80) (d : Fin 768), i = ix3 b r d := ⟨i 0, i 1, i 2, eq_ix3 i⟩
  obtain ⟨o, ho⟩ := order_entry x5 b r
  show val_main_v35 (F := Ideal) x2 x5 (ix3 b r d) = (∑ s : Fin 80, Cert.PackMath.oh (val_main_v23 (F := Ideal) x5 (ix2 b r)) s * x2 (ix4 b (⟨s.val, by have := s.isLt; omega⟩ : Fin 100) (0 : Fin 1) d)) * FloatOps.uitofp (F := Ideal) .f32 (val_main_v31 (F := Ideal) x5 (ix2 b r))
  rw [packed_vis_apply_ofNat x2 x5 b r d o ho, mask_vis' x5 b r d, ho]
  exact select_mul o (fun s : Fin 80 => x2 (ix4 b (⟨s.val, by have := s.isLt; omega⟩ : Fin 100) (0 : Fin 1) d)) _

/-- THE TEXTUAL RESULT: the same with the textual argument (the same order, the same mask). -/
theorem packed_txt_eq (x3 : (⟨S256x100x1x768, .f32⟩ : BufTy).Contents (Elt Ideal)) (x5 : (⟨S256x100, .f32⟩ : BufTy).Contents (Elt Ideal)) :
    val_main_v50 (F := Ideal) x3 x5 = fun i => (∑ s : Fin 80, Cert.PackMath.oh (val_main_v23 (F := Ideal) x5 (ix2 (i 0) (i 1))) s * x3 (ix4 (i 0) (⟨s.val, by have := s.isLt; omega⟩ : Fin 100) (0 : Fin 1) (i 2))) * FloatOps.uitofp (F := Ideal) .f32 (val_main_v31 (F := Ideal) x5 (ix2 (i 0) (i 1))) := by
  funext i
  obtain ⟨b, r, d, rfl⟩ : ∃ (b : Fin 256) (r : Fin 80) (d : Fin 768), i = ix3 b r d := ⟨i 0, i 1, i 2, eq_ix3 i⟩
  obtain ⟨o, ho⟩ := order_entry x5 b r
  show val_main_v50 (F := Ideal) x3 x5 (ix3 b r d) = (∑ s : Fin 80, Cert.PackMath.oh (val_main_v23 (F := Ideal) x5 (ix2 b r)) s * x3 (ix4 b (⟨s.val, by have := s.isLt; omega⟩ : Fin 100) (0 : Fin 1) d)) * FloatOps.uitofp (F := Ideal) .f32 (val_main_v31 (F := Ideal) x5 (ix2 b r))
  rw [packed_txt_apply_ofNat x3 x5 b r d o ho, mask_txt' x5 b r d, ho]
  exact select_mul o (fun s : Fin 80 => x3 (ix4 b (⟨s.val, by have := s.isLt; omega⟩ : Fin 100) (0 : Fin 1) d)) _

end Cert.ReferenceIdeal.RefPacked

end
-- ==== Proof.Bridge.lean ====
/-
  The two programs compute the same six arrays.

  On the host both programs apply the same operations to the same arguments: the argsort, the mask `position < count`,
  the two masks of 81 columns, the thresholded scores and the labels are, term for term, the reference's own stages. The two
  packed results differ in spelling only: the kernel multiplies a 0/1 selection matrix built from the argsort with the first 80
  rows of a feature array and then with the mask; the reference gathers the row the argsort names (guarded by a range test that
  always passes, since an argsort of 80 positions returns positions below 80) and multiplies with the same mask. A 0/1 row with
  its single 1 at position `o` selects row `o`; so the two are one function.
-/
import proofs.«153286_j54949811585479_2_alg».proof.Proof.KernelRun
import proofs.«153286_j54949811585479_2_alg».proof.Proof.RefPacked

set_option maxRecDepth 16384

noncomputable section

namespace Cert.Proof.Bridge

open Idealize.ShloMosaic Idealize.ShloMosaic.ValueIdx
open Cert.KernelIdeal.PackHost Cert.KernelIdeal.PackValue Cert.ReferenceIdeal.ReadP

variable (x2 x3 : (⟨Cert.ReferenceIdeal.S256x100x1x768, .f32⟩ : BufTy).Contents (Elt Ideal))
variable (x4 x5 : (⟨Cert.ReferenceIdeal.S256x100, .f32⟩ : BufTy).Contents (Elt Ideal))

/-- The kernel's argsort is the reference's. -/
theorem ordK_eq : ordK x5 = val_main_v23 (F := Ideal) x5 := rfl
/-- The kernel's mask is the reference's comparison of positions with counts, as a float. -/
theorem keepK_eq : keepK x5 = uitofp (F := Ideal) .f32 (val_main_v31 (F := Ideal) x5) := rfl
/-- The four host-computed results, stage for stage. -/
theorem textMask_eq : textMaskK x5 = val_main_v57 (F := Ideal) x5 := rfl
theorem imgMask_eq : imgMaskK x5 = val_main_v65 (F := Ideal) x5 := rfl
set_option maxRecDepth 200000 in
theorem rrMod_eq : rrModK x5 = val_main_v19 (F := Ideal) x5 := rfl
theorem labels_eq : labelsK x4 = val_main_v5 (F := Ideal) x4 := rfl

/-- The reference's first packed result is the kernel's packed array. -/
theorem vis_eq : val_main_v35 (F := Ideal) x2 x5 = Gpack (ordK x5) x2 (keepK x5) := by
  rw [Cert.ReferenceIdeal.RefPacked.packed_vis_eq, ordK_eq, keepK_eq]; rfl
/-- The reference's second packed result is the kernel's packed array. -/
theorem txt_eq : val_main_v50 (F := Ideal) x3 x5 = Gpack (ordK x5) x3 (keepK x5) := by
  rw [Cert.ReferenceIdeal.RefPacked.packed_txt_eq, ordK_eq, keepK_eq]; rfl

end Cert.Proof.Bridge

end
-- ==== Proof.Claims.lean ====
/-
  The certificate's five claims.

  The two kernel programs' frames are the frame run of the pallas_call with its host operations around it, read at the
  argument arrays. The reference's frame is its run with the results dropped. The idealization rewrote nothing, so `preserves`
  has no conjunct. The algebraic claim: from memories that agree on the arguments both idealized programs run to the end, the
  kernel's six results are the six functions of the arguments read off its run, and the reference's six results are the same
  functions (the bridge).
-/
import proofs.«153286_j54949811585479_2_alg».proof.Defs
import proofs.«153286_j54949811585479_2_alg».proof.Proof.BodyBits
import proofs.«153286_j54949811585479_2_alg».proof.Proof.Bridge
import proofs.«153286_j54949811585479_2_alg».proof.Proof.RefRunP
import proofs.«153286_j54949811585479_2_alg».proof.Proof.Gen.Pre_finite_inputs

set_option maxRecDepth 16384

noncomputable section

namespace Cert.Proof.Claims

open Idealize.ShloMosaic Idealize.SL.Sem
open Cert.KernelIdeal.PackHost Cert.KernelIdeal.KernelRun

theorem frame_k : Cert.frame_Kernel := fun m ρ _ => Cert.Kernel.Body.frame (F := Bits) m ρ

theorem frame_ki : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => (h c).2.2.2.2.2.2) (Cert.ReferenceIdeal.ValueP.run (F := Ideal) m ρ)

theorem preserves : Cert.preserves_Kernel_KernelIdeal := trivial

theorem algebraic : Cert.algebraic_KernelIdeal_ReferenceIdeal := by
  intro m ρ m' ρ' _ hagree
  refine ⟨fun c => visOut m c, fun c => txtOut m c,
    fun c => textMaskK (m ((c.tc : Thread Cert.KernelIdeal.nD Cert.KernelIdeal.τ).loc Cert.KernelIdeal.main_arg5)),
    fun c => imgMaskK (m ((c.tc : Thread Cert.KernelIdeal.nD Cert.KernelIdeal.τ).loc Cert.KernelIdeal.main_arg5)),
    fun c => rrModK (m ((c.tc : Thread Cert.KernelIdeal.nD Cert.KernelIdeal.τ).loc Cert.KernelIdeal.main_arg5)),
    fun c => labelsK (m ((c.tc : Thread Cert.KernelIdeal.nD Cert.KernelIdeal.τ).loc Cert.KernelIdeal.main_arg4)),
    Cert.KernelIdeal.KernelRun.run m ρ, ?_⟩
  refine (θ_run Cert.ReferenceIdeal.defs _ _).mono (fun r h c => ?_) (Cert.ReferenceIdeal.ValueP.run (F := Ideal) m' ρ')
  obtain ⟨h0, h1, h2, h3, h4, h5, hargs⟩ := h c
  obtain ⟨a0, a1, a2, a3, a4, a5⟩ := hagree c
  refine ⟨h0.trans ?_, h1.trans ?_, h2.trans ?_, h3.trans ?_, h4.trans ?_, h5.trans ?_, hargs⟩
  · rw [Cert.ReferenceIdeal.ReadP.val_main_v35_eq, a2, a5, Cert.Proof.Bridge.vis_eq]; rfl
  · rw [Cert.ReferenceIdeal.ReadP.val_main_v50_eq, a3, a5, Cert.Proof.Bridge.txt_eq]; rfl
  · rw [a5]; exact (Cert.ReferenceIdeal.ReadP.val_main_v57_eq _).trans (Cert.Proof.Bridge.textMask_eq _).symm
  · rw [a5]; exact (Cert.ReferenceIdeal.ReadP.val_main_v65_eq _).trans (Cert.Proof.Bridge.imgMask_eq _).symm
  · rw [a5]; exact (Cert.ReferenceIdeal.ReadP.val_main_v19_eq _).trans (Cert.Proof.Bridge.rrMod_eq _).symm
  · rw [a4]; exact (Cert.ReferenceIdeal.ReadP.val_main_v5_eq _).trans (Cert.Proof.Bridge.labels_eq _).symm

end Cert.Proof.Claims

end
-- ==== Proof.lean ====
/- The proof of `Cert.Claim`: the witnesses of the programs' stated side conditions, then the five claims.

   The kernel packs, for each of 256 batch rows, the first 80 rows of two feature arrays in the order a stable argsort of the
   thresholded scores gives, zeroing the rows past the count of scores above the threshold; it does the row selection as a
   product with a 0/1 matrix, where the reference gathers. The proof is in the modules under Proof/: the proof data of the
   pallas_call and the run of its body (PackData, BodyIdeal, and their word-level copies PackDataBits, BodyBits), the body's stored
   values at an index (PackPay, over LibDotRead and PackMath), the result arrays as whole-array functions (PackValue), the host
   operations' values (PackHost), the kernel's run read back (KernelRun), the reference's stages at an index (RefRead, RefPacked,
   over the copies RefRunDefsP, RefRunP, RefReadP of its run and read-back), the bridge between the two (Bridge) and the claims
   (Claims). -/
import proofs.«153286_j54949811585479_2_alg».proof.Defs
import proofs.«153286_j54949811585479_2_alg».proof.Proof.Claims
import proofs.«153286_j54949811585479_2_alg».proof.Proof.Gen.Kernel
import proofs.«153286_j54949811585479_2_alg».proof.Proof.Gen.Kernel.Skeleton
import proofs.«153286_j54949811585479_2_alg».proof.Proof.Gen.Kernel.Launch
import proofs.«153286_j54949811585479_2_alg».proof.Proof.Gen.Kernel.Points
import proofs.«153286_j54949811585479_2_alg».proof.Proof.Gen.Kernel.Frame
import proofs.«153286_j54949811585479_2_alg».proof.Proof.Gen.KernelIdeal
import proofs.«153286_j54949811585479_2_alg».proof.Proof.Gen.KernelIdeal.Skeleton
import proofs.«153286_j54949811585479_2_alg».proof.Proof.Gen.KernelIdeal.Launch
import proofs.«153286_j54949811585479_2_alg».proof.Proof.Gen.KernelIdeal.Points
import proofs.«153286_j54949811585479_2_alg».proof.Proof.Gen.KernelIdeal.Frame
import proofs.«153286_j54949811585479_2_alg».proof.Proof.Gen.ReferenceIdeal
import proofs.«153286_j54949811585479_2_alg».proof.Proof.Gen.Pre_finite_inputs
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
